-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 82
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S128x128, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48_0 : Ref sig .tc := ⟨.hbm, 68, rfl⟩
abbrev main_v48_1 : Ref sig .tc := ⟨.hbm, 69, rfl⟩
abbrev main_v48_2 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48_0) S2000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S128x128, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .f32⟩
  | .hbm, ⟨103, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call1_cst : Ref sig .tc := ⟨.hbm, 100, rfl⟩
abbrev main_call1_v0 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.WholeRun.lean ====
/-
  The whole program's run with every buffer named.

  The program is three pipelined kernel launches among stretches of host operations. Its run is the run of these
  eight segments one after the other; the contents of every buffer that outlives a launch, after the last segment,
  are the fold `W8` of the segments' effects over the launch memory: a host stretch rewrites its result buffers,
  a launch replaces each of its output arrays by what its grid points wrote back and leaves every other buffer alone.
  Stated here: every weakly fair execution terminates, and in the final state the result array holds `W8` at its
  buffer while the six argument arrays are as launched.
-/
import proofs.«100572_j75677323756038_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result array ends at the fold's contents, the arguments as launched. -/
theorem run_fold : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Whole

end
-- ==== Proof.RefRun.lean ====
/-
  The reference's run, read back.

  The reference is a straight line of host operations. Its run from any memory terminates with every result buffer at
  the operations' composed term of the argument arrays, and the arguments unchanged. The composed term is stated here
  in stages: the edge list with self loops (`src`, `dst`), the symmetric degree weights (`deg`, `dinv`, `edgeW`),
  the aggregation of the projected rows (`agg` of the product `xw`), the bias (`hRef`), and the normalisation over the
  rows with the cut at zero and the residual (`tail`): the column means, the means of the squared deviations, the
  reciprocal square root of that variance plus a small constant, the gain and the offset.
-/
import proofs.«100572_j75677323756038_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 98 operations, in order (a called function's operations stand in its call's place, spelt `TRef.…`). -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select,
    nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v3 main_v17 main_v18 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v19 (broadcastInDim S850000 ![] bcast_S_S850000 : (⟨S_, .i32⟩ : BufTy).Contents (Elt F) → (⟨S850000, .i32⟩ : BufTy).Contents (Elt F)),
    binary main_v3 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)),
    unary main_arg2 main_v32 ((transpose S128x128 [1, 0] · transposes_S128x128_S128x128_1_0) : (⟨S128x128, .f32⟩ : BufTy).Contents (Elt F) → (⟨S128x128, .f32⟩ : BufTy).Contents (Elt F)),
    binary main_arg0 main_v32 main_v33 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_7 (constantI S_ 32 0#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v36 (broadcastInDim S850000 ![] bcast_S_S850000 : (⟨S_, .i32⟩ : BufTy).Contents (Elt F) → (⟨S850000, .i32⟩ : BufTy).Contents (Elt F)),
    binary main_v3 main_v36 main_v37 (addi : (⟨S850000, .i32⟩ : BufTy).Contents (Elt F) → (⟨S850000, .i32⟩ : BufTy).Contents (Elt F) → (⟨S850000, .i32⟩ : BufTy).Contents (Elt F)),
    ternary main_v35 main_v37 main_v3 main_v38 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v38 main_v39 (broadcastInDim S850000x1 ![0] bcast_S850000_S850000x1_0 : (⟨S850000, .i32⟩ : BufTy).Contents (Elt F) → (⟨S850000x1, .i32⟩ : BufTy).Contents (Elt F)),
    binary main_v33 main_v39 main_v40 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v41 (broadcastInDim S850000x1 ![0] bcast_S850000_S850000x1_0 : (⟨S850000, .f32⟩ : BufTy).Contents (Elt F) → (⟨S850000x1, .f32⟩ : BufTy).Contents (Elt F)),
    unary main_v41 main_v42 (broadcastInDim S850000x128 ![0, 1] bcast_S850000x1_S850000x128_0_1 : (⟨S850000x1, .f32⟩ : BufTy).Contents (Elt F) → (⟨S850000x128, .f32⟩ : BufTy).Contents (Elt F)),
    binary main_v40 main_v42 main_v43 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v44 (broadcastInDim S50000x128 ![] bcast_S_S50000x128 : (⟨S_, .f32⟩ : BufTy).Contents (Elt F) → (⟨S50000x128, .f32⟩ : BufTy).Contents (Elt F)),
    unary main_v6 main_v45 (broadcastInDim S850000x1 ![0] bcast_S850000_S850000x1_0 : (⟨S850000, .i32⟩ : BufTy).Contents (Elt F) → (⟨S850000x1, .i32⟩ : BufTy).Contents (Elt F)),
    ternary main_v44 main_v45 main_v43 main_v46 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v46 main_v48 main_v49 (addf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    binary main_v49 main_cst_10 main_v50 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_11 (constant S_ .f32 0x47435000#32),
    unary main_cst_11 main_v51 (broadcastInDim S128 ![] bcast_S_S128 : (⟨S_, .f32⟩ : BufTy).Contents (Elt F) → (⟨S128, .f32⟩ : BufTy).Contents (Elt F)),
    binary main_v50 main_v51 main_v52 (Host.divf : (⟨S128, .f32⟩ : BufTy).Contents (Elt F) → (⟨S128, .f32⟩ : BufTy).Contents (Elt F) → (⟨S128, .f32⟩ : BufTy).Contents (Elt F)),
    unary main_v52 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v49 main_v54 main_v55 (subf : (⟨S50000x128, .f32⟩ : BufTy).Contents (Elt F) → (⟨S50000x128, .f32⟩ : BufTy).Contents (Elt F) → (⟨S50000x128, .f32⟩ : BufTy).Contents (Elt F)),
    binary main_v55 main_v55 main_v56 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    binary main_v56 main_cst_12 main_v57 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v58 (broadcastInDim S128 ![] bcast_S_S128 : (⟨S_, .f32⟩ : BufTy).Contents (Elt F) → (⟨S128, .f32⟩ : BufTy).Contents (Elt F)),
    binary main_v57 main_v58 main_v59 (Host.divf : (⟨S128, .f32⟩ : BufTy).Contents (Elt F) → (⟨S128, .f32⟩ : BufTy).Contents (Elt F) → (⟨S128, .f32⟩ : BufTy).Contents (Elt F)),
    unary main_v52 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)),
    binary main_v49 main_v61 main_v62 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v63 (broadcastInDim S128 ![] bcast_S_S128 : (⟨S_, .f32⟩ : BufTy).Contents (Elt F) → (⟨S128, .f32⟩ : BufTy).Contents (Elt F)),
    binary main_v59 main_v63 main_v64 (addf : (⟨S128, .f32⟩ : BufTy).Contents (Elt F) → (⟨S128, .f32⟩ : BufTy).Contents (Elt F) → (⟨S128, .f32⟩ : BufTy).Contents (Elt F)),
    unary main_v64 main_v65 (Host.rsqrt : (⟨S128, .f32⟩ : BufTy).Contents (Elt F) → (⟨S128, .f32⟩ : BufTy).Contents (Elt F)),
    unary main_v65 main_v66 (broadcastInDim S1x128 ![1] bcast_S128_S1x128_1 : (⟨S128, .f32⟩ : BufTy).Contents (Elt F) → (⟨S1x128, .f32⟩ : BufTy).Contents (Elt F)),
    unary main_v66 main_v67 (broadcastInDim S50000x128 ![0, 1] bcast_S1x128_S50000x128_0_1 : (⟨S1x128, .f32⟩ : BufTy).Contents (Elt F) → (⟨S50000x128, .f32⟩ : BufTy).Contents (Elt F)),
    binary main_v62 main_v67 main_v68 (mulf : (⟨S50000x128, .f32⟩ : BufTy).Contents (Elt F) → (⟨S50000x128, .f32⟩ : BufTy).Contents (Elt F) → (⟨S50000x128, .f32⟩ : BufTy).Contents (Elt F)),
    unary main_arg4 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v68 main_v70 main_v71 (mulf : (⟨S50000x128, .f32⟩ : BufTy).Contents (Elt F) → (⟨S50000x128, .f32⟩ : BufTy).Contents (Elt F) → (⟨S50000x128, .f32⟩ : BufTy).Contents (Elt F)),
    unary main_arg5 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v71 main_v73 main_v74 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v74) (TRef.of (T := ⟨S50000x128, .f32⟩) main_call1_v0) (TRef.of (T := ⟨S50000x128, .f32⟩) main_v75) maximumf,
    binary main_arg0 main_v75 main_v76 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

/-! ## The composed term, in stages -/

/-- The source column of the edge list followed by the self loops 0 … 49999. -/
def src (x1 : (⟨S2x800000, .i32⟩ : BufTy).Contents (Elt F)) : (⟨S850000, .i32⟩ : BufTy).Contents (Elt F) :=
  concatenate S850000 0 [⟨S800000, (shapeCast _ (extractStridedSlice S1x800000 ![0, 0] x1 slices_S2x800000_S1x800000_0_0) shapeCasts_S1x800000_S800000)⟩, ⟨S50000, (iotaInDim S50000 32 0)⟩] concatenates_S800000_S50000_S850000_d0

/-- The target column of the edge list followed by the self loops. -/
def dst (x1 : (⟨S2x800000, .i32⟩ : BufTy).Contents (Elt F)) : (⟨S850000, .i32⟩ : BufTy).Contents (Elt F) :=
  concatenate S850000 0 [⟨S800000, (shapeCast _ (extractStridedSlice S1x800000 ![1, 0] x1 slices_S2x800000_S1x800000_1_0) shapeCasts_S1x800000_S800000)⟩, ⟨S50000, (iotaInDim S50000 32 0)⟩] concatenates_S800000_S50000_S850000_d0

/-- A negative index counted from the end: v + 50000 where v < 0, v otherwise. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The in-degree with self loops: ones summed into zero at the targets. -/
def deg (x1 : (⟨S2x800000, .i32⟩ : BufTy).Contents (Elt F)) : FVec F S50000 .f32 :=
  Host.scatterAdd scatter_S50000_S850000x1_S850000_n_0_0_1 (broadcastInDim S50000 ![] bcast_S_S50000 (constant (F := F) S_ .f32 0x00000000#32)) (broadcastInDim S850000x1 ![0] bcast_S850000_S850000x1_0 (dst (F := F) x1)) (broadcastInDim S850000 ![] bcast_S_S850000 (constant (F := F) S_ .f32 0x3F800000#32))

/-- deg^(-1/2) where the degree is positive (the degree first raised to at least 1), 0 elsewhere. -/
def dinv (x1 : (⟨S2x800000, .i32⟩ : BufTy).Contents (Elt F)) : FVec F S50000 .f32 :=
  select (cmpf .ogt (deg (F := F) x1) (broadcastInDim S50000 ![] bcast_S_S50000 (constant (F := F) S_ .f32 0x00000000#32))) (Host.rsqrt (maximumf (deg (F := F) x1) (broadcastInDim S50000 ![] bcast_S_S50000 (constant (F := F) S_ .f32 0x3F800000#32)))) (broadcastInDim S50000 ![] bcast_S_S50000 (id (constant (F := F) S_ .f32 0x00000000#32)))

/-- The weight of each edge: dinv at its source times dinv at its target. -/
def edgeW (x1 : (⟨S2x800000, .i32⟩ : BufTy).Contents (Elt F)) : FVec F S850000 .f32 :=
  mulf (Host.gather gather_S50000_S850000x1_S850000_n_0_n_n_0_1_1 (dinv (F := F) x1) (broadcastInDim S850000x1 ![0] bcast_S850000_S850000x1_0 (wrap (F := F) (src (F := F) x1)))) (Host.gather gather_S50000_S850000x1_S850000_n_0_n_n_0_1_1 (dinv (F := F) x1) (broadcastInDim S850000x1 ![0] bcast_S850000_S850000x1_0 (wrap (F := F) (dst (F := F) x1))))

/-- The aggregation: each edge's source row of `xw`, scaled by the edge's weight, summed into zero at the edge's target row. -/
def agg (xw : FVec F S50000x128 .f32) (x1 : (⟨S2x800000, .i32⟩ : BufTy).Contents (Elt F)) : FVec F S50000x128 .f32 :=
  Host.scatterAdd scatter_S50000x128_S850000x1_S850000x128_1_0_0_1 (broadcastInDim S50000x128 ![] bcast_S_S50000x128 (constant (F := F) S_ .f32 0x00000000#32)) (broadcastInDim S850000x1 ![0] bcast_S850000_S850000x1_0 (dst (F := F) x1)) (mulf (Host.gather gather_S50000x128_S850000x1_S850000x128_1_0_n_n_0_1_1128 xw (broadcastInDim S850000x1 ![0] bcast_S850000_S850000x1_0 (wrap (F := F) (src (F := F) x1)))) (broadcastInDim S850000x128 ![0, 1] bcast_S850000x1_S850000x128_0_1 (broadcastInDim S850000x1 ![0] bcast_S850000_S850000x1_0 (edgeW (F := F) x1))))

/-- The product of the rows with the transposed weight matrix. -/
def xwRef (x0 : FVec F S50000x128 .f32) (x2 : FVec F S128x128 .f32) : FVec F S50000x128 .f32 :=
  Host.dotGeneral dot_S50000x128_S128x128_S50000x128_1_0_0_1_n_n none x0 (transpose S128x128 [1, 0] x2 transposes_S128x128_S128x128_1_0)

/-- A vector [128] as every row of [50000, 128]. -/
def rows (v : FVec F S128 .f32) : FVec F S50000x128 .f32 :=
  broadcastInDim S50000x128 ![0, 1] bcast_S1x128_S50000x128_0_1 (broadcastInDim S1x128 ![1] bcast_S128_S1x128_1 v)

/-- The aggregated rows plus the bias. -/
def hRef (x0 : FVec F S50000x128 .f32) (x1 : (⟨S2x800000, .i32⟩ : BufTy).Contents (Elt F)) (x2 : FVec F S128x128 .f32) (x3 : FVec F S128 .f32) : FVec F S50000x128 .f32 :=
  addf (agg (F := F) (xwRef (F := F) x0 x2) x1) (rows (F := F) x3)

/-- The column sums from zero. -/
def colSum (H : FVec F S50000x128 .f32) : FVec F S128 .f32 :=
  Host.reduceAdd H (constant (F := F) S_ .f32 0x00000000#32) reducesTo_S50000x128_S128_d0 h_S_

/-- The column means. -/
def meanV (H : FVec F S50000x128 .f32) : FVec F S128 .f32 :=
  Host.divf (colSum (F := F) H) (broadcastInDim S128 ![] bcast_S_S128 (constant (F := F) S_ .f32 0x47435000#32))

/-- The rows with the column means subtracted. -/
def cent (H : FVec F S50000x128 .f32) : FVec F S50000x128 .f32 := subf H (rows (F := F) (meanV (F := F) H))

/-- The column means of the squared deviations. -/
def varV (H : FVec F S50000x128 .f32) : FVec F S128 .f32 :=
  Host.divf (colSum (F := F) (mulf (cent (F := F) H) (cent (F := F) H))) (broadcastInDim S128 ![] bcast_S_S128 (constant (F := F) S_ .f32 0x47435000#32))

/-- The normalised rows, scaled, shifted, cut at zero, and added to the input rows. -/
def tail (H x0 : FVec F S50000x128 .f32) (x4 x5 : FVec F S128 .f32) : FVec F S50000x128 .f32 :=
  addf x0 (maximumf (addf (mulf (mulf (cent (F := F) H) (rows (F := F) (Host.rsqrt (addf (varV (F := F) H) (broadcastInDim S128 ![] bcast_S_S128 (constant (F := F) S_ .f32 0x3727C5AC#32)))))) (rows (F := F) x4)) (rows (F := F) x5)) (broadcastInDim S50000x128 ![] bcast_S_S50000x128 (constant (F := F) S_ .f32 0x00000000#32)))

set_option maxRecDepth 8192 in
set_option maxHeartbeats 39200000 in
/-- On every device, from any memory with zero counters: every weakly fair execution of the reference terminates with
    the result at the staged term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76) = tail (F := F) (hRef (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg0)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v76).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Hand

end
-- ==== Proof.KStages.lean ====
/-
  The host stretches of the kernel program, in stages.

  Around its three launches the program computes on the host exactly what the reference does: the edge list with self
  loops (`src`, `dst`), the symmetric degree weights (`deg`, `dinv`, `edgeW`) and the aggregation `agg` of the
  projected rows, here applied to the first launch's result; then, from the second launch's column sums, the mean and the
  variance by the first two moments.
-/
import proofs.«100572_j75677323756038_1_alg».proof.Proof.Gen.KernelIdeal

noncomputable section

namespace Cert.KernelIdeal.Hand

open Cert.KernelIdeal Cert.KernelIdeal.Gen Idealize.ShloMosaic

variable {F : FTy → Type} [FloatOps F]

/-- The source column of the edge list followed by the self loops 0 … 49999. -/
def src (x1 : (⟨S2x800000, .i32⟩ : BufTy).Contents (Elt F)) : (⟨S850000, .i32⟩ : BufTy).Contents (Elt F) :=
  concatenate S850000 0 [⟨S800000, (shapeCast _ (extractStridedSlice S1x800000 ![0, 0] x1 slices_S2x800000_S1x800000_0_0) shapeCasts_S1x800000_S800000)⟩, ⟨S50000, (iotaInDim S50000 32 0)⟩] concatenates_S800000_S50000_S850000_d0

/-- The target column of the edge list followed by the self loops. -/
def dst (x1 : (⟨S2x800000, .i32⟩ : BufTy).Contents (Elt F)) : (⟨S850000, .i32⟩ : BufTy).Contents (Elt F) :=
  concatenate S850000 0 [⟨S800000, (shapeCast _ (extractStridedSlice S1x800000 ![1, 0] x1 slices_S2x800000_S1x800000_1_0) shapeCasts_S1x800000_S800000)⟩, ⟨S50000, (iotaInDim S50000 32 0)⟩] concatenates_S800000_S50000_S850000_d0

/-- A negative index counted from the end: v + 50000 where v < 0, v otherwise. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The in-degree with self loops: ones summed into zero at the targets. -/
def deg (x1 : (⟨S2x800000, .i32⟩ : BufTy).Contents (Elt F)) : FVec F S50000 .f32 :=
  Host.scatterAdd scatter_S50000_S850000x1_S850000_n_0_0_1 (broadcastInDim S50000 ![] bcast_S_S50000 (constant (F := F) S_ .f32 0x00000000#32)) (broadcastInDim S850000x1 ![0] bcast_S850000_S850000x1_0 (dst (F := F) x1)) (broadcastInDim S850000 ![] bcast_S_S850000 (constant (F := F) S_ .f32 0x3F800000#32))

/-- deg^(-1/2) where the degree is positive (the degree first raised to at least 1), 0 elsewhere. -/
def dinv (x1 : (⟨S2x800000, .i32⟩ : BufTy).Contents (Elt F)) : FVec F S50000 .f32 :=
  select (cmpf .ogt (deg (F := F) x1) (broadcastInDim S50000 ![] bcast_S_S50000 (constant (F := F) S_ .f32 0x00000000#32))) (Host.rsqrt (maximumf (deg (F := F) x1) (broadcastInDim S50000 ![] bcast_S_S50000 (constant (F := F) S_ .f32 0x3F800000#32)))) (broadcastInDim S50000 ![] bcast_S_S50000 (id (constant (F := F) S_ .f32 0x00000000#32)))

/-- The weight of each edge: dinv at its source times dinv at its target. -/
def edgeW (x1 : (⟨S2x800000, .i32⟩ : BufTy).Contents (Elt F)) : FVec F S850000 .f32 :=
  mulf (Host.gather gather_S50000_S850000x1_S850000_n_0_n_n_0_1_1 (dinv (F := F) x1) (broadcastInDim S850000x1 ![0] bcast_S850000_S850000x1_0 (wrap (F := F) (src (F := F) x1)))) (Host.gather gather_S50000_S850000x1_S850000_n_0_n_n_0_1_1 (dinv (F := F) x1) (broadcastInDim S850000x1 ![0] bcast_S850000_S850000x1_0 (wrap (F := F) (dst (F := F) x1))))

/-- The aggregation: each edge's source row of `xw`, scaled by the edge's weight, summed into zero at the edge's target row. -/
def agg (xw : FVec F S50000x128 .f32) (x1 : (⟨S2x800000, .i32⟩ : BufTy).Contents (Elt F)) : FVec F S50000x128 .f32 :=
  Host.scatterAdd scatter_S50000x128_S850000x1_S850000x128_1_0_0_1 (broadcastInDim S50000x128 ![] bcast_S_S50000x128 (constant (F := F) S_ .f32 0x00000000#32)) (broadcastInDim S850000x1 ![0] bcast_S850000_S850000x1_0 (dst (F := F) x1)) (mulf (Host.gather gather_S50000x128_S850000x1_S850000x128_1_0_n_n_0_1_1128 xw (broadcastInDim S850000x1 ![0] bcast_S850000_S850000x1_0 (wrap (F := F) (src (F := F) x1)))) (broadcastInDim S850000x128 ![0, 1] bcast_S850000x1_S850000x128_0_1 (broadcastInDim S850000x1 ![0] bcast_S850000_S850000x1_0 (edgeW (F := F) x1))))

/-- The rows times the transposed weight matrix, as one host product. -/
def xwHost (x0 : FVec F S50000x128 .f32) (x2 : FVec F S128x128 .f32) : FVec F S50000x128 .f32 :=
  Host.dotGeneral (DotDims.plain 50000 128 128) none x0 (transpose S128x128 [1, 0] x2 transposes_S128x128_S128x128_1_0)

/-- A row [1, 128] divided by the row count. -/
def perRow (s : FVec F S1x128 .f32) : FVec F S1x128 .f32 :=
  Host.divf s (broadcastInDim S1x128 ![] bcast_S_S1x128 (constant (F := F) S_ .f32 0x47435000#32))

/-- The variance row from the sum row and the sum-of-squares row. -/
def varRow (s ss : FVec F S1x128 .f32) : FVec F S1x128 .f32 :=
  subf (perRow (F := F) ss) (mulf (perRow (F := F) s) (perRow (F := F) s))

end Cert.KernelIdeal.Hand

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibBatchNorm.lean ====
/-
  Batch normalisation over the extended reals, when every entry is a real number.

  For real entries x_1, …, x_n (n > 0), a real gain g, a real offset b and a positive real ε, put
      m  = (Σ_j x_j) / n                      the mean,
      v  = (Σ_j x_j · x_j) / n − m · m          the variance from the first two moments,
      v' = (Σ_j (x_j − m) · (x_j − m)) / n      the variance from the centred entries.
  Over ℝ, expanding the square and using Σ_j x_j = n · m gives v = v'; and v' ≥ 0, so v' + ε > 0, its square
  root is a positive real and s = g / √(v' + ε) is a real. Hence the two ways of normalising,
      x_i · s + (b − m · s)      and      (x_i − m) · s + b ,
  agree (distribute the product), and the common value is a real number.

  The division and the square root below are the ones on the extended reals with their conventions at 0, at
  the infinities and at the negatives (Ideal.div, Ideal.sqrt); on the arguments that occur here (a nonzero
  real divisor, a nonnegative real radicand) they are the real operations, which is what makes the identities
  above available. (Over the extended reals in general they fail: ∞ − ∞ and 0 · ∞ are not cancellable.)

  Also here: closure of "is a real number" under subtraction, negation, maximum, division by a nonzero real,
  the square root of a nonnegative real, and the reciprocal square root of a positive real, as they read on
  the extended reals; and the selection "if d > 0 then 1 / √(if d > 0 then d else 1) else 0" is a real.
-/
import Mathlib
import Idealize.ShloMosaic.PureOps.Ideal
import Idealize.ShloMosaic.PureOps.Ideal.Laws
import proofs.«100572_j75677323756038_1_alg».proof.Proof.LibRealSum

noncomputable section

open scoped BigOperators
open Idealize.ShloMosaic
open Cert.LibRealSum

namespace Cert.Lib.BatchNorm

/-! ### Closure of "is a real number" -/

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_neg {x : EReal} (hx : IsReal x) : IsReal (-x) := by
  obtain ⟨a, rfl⟩ := hx; exact ⟨-a, (EReal.coe_neg a).symm⟩

theorem isReal_max {x y : EReal} (hx : IsReal x) (hy : IsReal y) : IsReal (max x y) := by
  obtain ⟨a, rfl⟩ := hx; obtain ⟨b, rfl⟩ := hy; exact ⟨max a b, (EReal.coe_strictMono.monotone.map_max).symm⟩

/-- The maximum of a real with 0 is a nonnegative real. -/
theorem isReal_max_zero {x : EReal} (hx : IsReal x) : IsReal (max x 0) := isReal_max hx isReal_zero

theorem isReal_ne_top {x : EReal} (hx : IsReal x) : x ≠ ⊤ := by
  obtain ⟨a, rfl⟩ := hx; exact EReal.coe_ne_top a

theorem isReal_ne_bot {x : EReal} (hx : IsReal x) : x ≠ ⊥ := by
  obtain ⟨a, rfl⟩ := hx; exact EReal.coe_ne_bot a

/-- The quotient of two reals with a nonzero divisor is the real quotient. -/
theorem div_coe_coe (a b : ℝ) (hb : b ≠ 0) : Ideal.div (a : EReal) (b : EReal) = ((a / b : ℝ) : EReal) := by
  rw [Ideal.div_coe hb, ← EReal.coe_mul, mul_one_div]

theorem isReal_div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a b hb⟩

/-- The square root of a nonnegative real is the real square root. -/
theorem sqrt_coe_of_nonneg (r : ℝ) (h : 0 ≤ r) : Ideal.sqrt (r : EReal) = ((Real.sqrt r : ℝ) : EReal) := by
  rw [Ideal.sqrt_coe, if_neg (not_lt.mpr h)]

theorem isReal_sqrt {x : EReal} (hx : IsReal x) (h0 : 0 ≤ x) : IsReal (Ideal.sqrt x) := by
  obtain ⟨a, rfl⟩ := hx
  exact ⟨Real.sqrt a, sqrt_coe_of_nonneg a (by exact_mod_cast h0)⟩

/-- The square root of a positive real is a positive real. -/
theorem sqrt_pos_of_pos {x : EReal} (hx : IsReal x) (h0 : 0 < x) : IsReal (Ideal.sqrt x) ∧ 0 < Ideal.sqrt x := by
  obtain ⟨a, rfl⟩ := hx
  have ha : 0 < a := by exact_mod_cast h0
  refine ⟨⟨Real.sqrt a, sqrt_coe_of_nonneg a ha.le⟩, ?_⟩
  rw [sqrt_coe_of_nonneg a ha.le]
  exact_mod_cast Real.sqrt_pos.mpr ha

/-- 1 / √d for a positive real d is the real 1 / √d. -/
theorem one_div_sqrt_coe (d : ℝ) (hd : 0 < d) :
    Ideal.div 1 (Ideal.sqrt (d : EReal)) = ((1 / Real.sqrt d : ℝ) : EReal) := by
  rw [sqrt_coe_of_nonneg d hd.le, ← EReal.coe_one, div_coe_coe 1 _ (Real.sqrt_pos.mpr hd).ne']

theorem isReal_one_div_sqrt {x : EReal} (hx : IsReal x) (h0 : 0 < x) : IsReal (Ideal.div 1 (Ideal.sqrt x)) := by
  obtain ⟨a, rfl⟩ := hx
  exact ⟨_, one_div_sqrt_coe a (by exact_mod_cast h0)⟩

/-- g / √d for a real g and a positive real d is the real g / √d. -/
theorem div_sqrt_coe (g d : ℝ) (hd : 0 < d) :
    Ideal.div (g : EReal) (Ideal.sqrt (d : EReal)) = ((g / Real.sqrt d : ℝ) : EReal) := by
  rw [sqrt_coe_of_nonneg d hd.le, div_coe_coe g _ (Real.sqrt_pos.mpr hd).ne']

/-! ### The variance identity over ℝ -/

/-- Σ (a_j − m)² = Σ a_j² − n · m² when m is the mean; divided by n. -/
theorem var_moments_eq_centred {n : ℕ} (hn : 0 < n) (a : Fin n → ℝ) :
    (∑ j, a j * a j) / (n : ℝ) - (∑ j, a j) / (n : ℝ) * ((∑ j, a j) / (n : ℝ))
      = (∑ j, (a j - (∑ k, a k) / (n : ℝ)) * (a j - (∑ k, a k) / (n : ℝ))) / (n : ℝ) := by
  have hn' : (n : ℝ) ≠ 0 := by exact_mod_cast hn.ne'
  set m : ℝ := (∑ k, a k) / (n : ℝ) with hm
  have hA : ∑ k, a k = (n : ℝ) * m := by rw [hm]; field_simp
  have hexp : ∀ j, (a j - m) * (a j - m) = a j * a j - 2 * m * a j + m * m := fun j => by ring
  have hsum : ∑ j, (a j - m) * (a j - m) = (∑ j, a j * a j) - 2 * m * (∑ j, a j) + (n : ℝ) * (m * m) := by
    simp only [hexp, Finset.sum_add_distrib, Finset.sum_sub_distrib, ← Finset.mul_sum, Finset.sum_const,
      Finset.card_univ, Fintype.card_fin, nsmul_eq_mul]
    ring
  rw [hsum, hA]
  field_simp
  ring

theorem var_centred_nonneg {n : ℕ} (a : Fin n → ℝ) (m : ℝ) : 0 ≤ (∑ j, (a j - m) * (a j - m)) / (n : ℝ) :=
  div_nonneg (Finset.sum_nonneg fun j _ => mul_self_nonneg _) (Nat.cast_nonneg n)

/-! ### The same on the extended reals -/

section
variable {n : ℕ} (hn : 0 < n) (x : Fin n → EReal) (hx : ∀ j, IsReal (x j)) {N : EReal} (hN : N = ((n : ℝ) : EReal))
include hn hx hN

/-- The mean of real entries is the real mean. -/
theorem mean_eq (a : Fin n → ℝ) (ha : ∀ j, x j = (a j : EReal)) :
    Ideal.div (∑ j, x j) N = (((∑ j, a j) / (n : ℝ) : ℝ) : EReal) := by
  have hn' : (n : ℝ) ≠ 0 := by exact_mod_cast hn.ne'
  simp only [ha, hN, ← coe_finset_sum, div_coe_coe _ _ hn']

theorem isReal_mean : IsReal (Ideal.div (∑ j, x j) N) := by
  choose a ha using hx
  exact ⟨_, mean_eq hn x (fun j => ⟨a j, ha j⟩) hN a ha⟩

/-- THE VARIANCE IDENTITY: from the moments, and from the centred entries. -/
theorem varMoments_eq_varCentred :
    Ideal.div (∑ j, x j * x j) N - Ideal.div (∑ j, x j) N * Ideal.div (∑ j, x j) N
      = Ideal.div (∑ j, (x j - Ideal.div (∑ k, x k) N) * (x j - Ideal.div (∑ k, x k) N)) N := by
  have hn' : (n : ℝ) ≠ 0 := by exact_mod_cast hn.ne'
  choose a ha using hx
  rw [mean_eq hn x (fun j => ⟨a j, ha j⟩) hN a ha]
  simp only [ha, hN, ← EReal.coe_mul, ← EReal.coe_sub, ← coe_finset_sum, div_coe_coe _ _ hn']
  exact congrArg _ (var_moments_eq_centred hn a)

/-- The centred variance is a nonnegative real. -/
theorem varCentred_real_nonneg :
    ∃ v : ℝ, 0 ≤ v ∧
      Ideal.div (∑ j, (x j - Ideal.div (∑ k, x k) N) * (x j - Ideal.div (∑ k, x k) N)) N = (v : EReal) := by
  have hn' : (n : ℝ) ≠ 0 := by exact_mod_cast hn.ne'
  choose a ha using hx
  refine ⟨_, var_centred_nonneg a ((∑ k, a k) / (n : ℝ)), ?_⟩
  rw [mean_eq hn x (fun j => ⟨a j, ha j⟩) hN a ha]
  simp only [ha, hN, ← EReal.coe_mul, ← EReal.coe_sub, ← coe_finset_sum, div_coe_coe _ _ hn']

end

/-! ### The scale, the two normalisations, and their agreement -/

section
variable {n : ℕ} (hn : 0 < n) (x : Fin n → EReal) (hx : ∀ j, IsReal (x j)) {N g be eps : EReal}
  (hN : N = ((n : ℝ) : EReal)) (hg : IsReal g) (hbe : IsReal be) (heps : ∃ e : ℝ, 0 < e ∧ eps = (e : EReal))
include hn hx hN heps

/-- The centred variance plus ε is a positive real. -/
theorem varCentred_add_eps_pos :
    ∃ w : ℝ, 0 < w ∧
      Ideal.div (∑ j, (x j - Ideal.div (∑ k, x k) N) * (x j - Ideal.div (∑ k, x k) N)) N + eps = (w : EReal) := by
  obtain ⟨v, hv0, hv⟩ := varCentred_real_nonneg hn x hx hN
  obtain ⟨e, he0, rfl⟩ := heps
  exact ⟨v + e, by linarith, by rw [hv, ← EReal.coe_add]⟩

include hg

/-- The scale g / √(v' + ε), with v' the centred variance, is a real. -/
theorem isReal_scale :
    IsReal (Ideal.div g (Ideal.sqrt
      (Ideal.div (∑ j, (x j - Ideal.div (∑ k, x k) N) * (x j - Ideal.div (∑ k, x k) N)) N + eps))) := by
  obtain ⟨w, hw0, hw⟩ := varCentred_add_eps_pos hn x hx hN heps
  obtain ⟨g', rfl⟩ := hg
  rw [hw, div_sqrt_coe g' w hw0]
  exact ⟨_, rfl⟩

/-- The scale g / √(v + ε), with v the variance from the moments, is the same real. -/
theorem isReal_scale_moments :
    IsReal (Ideal.div g (Ideal.sqrt
      (Ideal.div (∑ j, x j * x j) N - Ideal.div (∑ j, x j) N * Ideal.div (∑ j, x j) N + eps))) := by
  rw [varMoments_eq_varCentred hn x hx hN]
  exact isReal_scale hn x hx hN hg heps

include hbe

/-- The shift b − m · s, with s the scale from the moments, is a real. -/
theorem isReal_shift_moments :
    IsReal (be - Ideal.div (∑ j, x j) N * Ideal.div g (Ideal.sqrt
      (Ideal.div (∑ j, x j * x j) N - Ideal.div (∑ j, x j) N * Ideal.div (∑ j, x j) N + eps))) :=
  isReal_sub hbe ((isReal_mean hn x hx hN).mul (isReal_scale_moments hn x hx hN hg heps))

/-- The normalised entry (x_i − m) · s + b, with s the scale from the centred variance, is a real. -/
theorem isReal_refOut (i : Fin n) :
    IsReal ((x i - Ideal.div (∑ j, x j) N) * Ideal.div g (Ideal.sqrt
      (Ideal.div (∑ j, (x j - Ideal.div (∑ k, x k) N) * (x j - Ideal.div (∑ k, x k) N)) N + eps)) + be) :=
  ((isReal_sub (hx i) (isReal_mean hn x hx hN)).mul (isReal_scale hn x hx hN hg heps)).add hbe

end

/-- Distributing the product, for real numbers: x · s + (b − m · s) = (x − m) · s + b. -/
theorem affine_eq {xi s b m : EReal} (hxi : IsReal xi) (hs : IsReal s) (hb : IsReal b) (hm : IsReal m) :
    xi * s + (b - m * s) = (xi - m) * s + b := by
  obtain ⟨xi', rfl⟩ := hxi; obtain ⟨s', rfl⟩ := hs; obtain ⟨b', rfl⟩ := hb; obtain ⟨m', rfl⟩ := hm
  simp only [← EReal.coe_mul, ← EReal.coe_sub, ← EReal.coe_add]
  exact congrArg _ (by ring)

/-- THE THEOREM. For real entries, a real gain and offset and a positive real ε, the normalisation by scale and
    shift from the moments, x_i · s + (b − m · s) with s = g / √((Σ x_j · x_j)/n − m · m + ε), is the normalisation
    of the centred entry, (x_i − m) · s' + b with s' = g / √((Σ (x_j − m) · (x_j − m))/n + ε). -/
theorem kernel_eq_ref {n : ℕ} (hn : 0 < n) (x : Fin n → EReal) (hx : ∀ j, IsReal (x j)) {N g be eps : EReal}
    (hN : N = ((n : ℝ) : EReal)) (hg : IsReal g) (hbe : IsReal be) (heps : ∃ e : ℝ, 0 < e ∧ eps = (e : EReal))
    (i : Fin n) :
    x i * Ideal.div g (Ideal.sqrt
        (Ideal.div (∑ j, x j * x j) N - Ideal.div (∑ j, x j) N * Ideal.div (∑ j, x j) N + eps))
      + (be - Ideal.div (∑ j, x j) N * Ideal.div g (Ideal.sqrt
        (Ideal.div (∑ j, x j * x j) N - Ideal.div (∑ j, x j) N * Ideal.div (∑ j, x j) N + eps)))
    = (x i - Ideal.div (∑ j, x j) N) * Ideal.div g (Ideal.sqrt
        (Ideal.div (∑ j, (x j - Ideal.div (∑ k, x k) N) * (x j - Ideal.div (∑ k, x k) N)) N + eps)) + be := by
  rw [varMoments_eq_varCentred hn x hx hN]
  exact affine_eq (hx i) (isReal_scale hn x hx hN hg heps) hbe (isReal_mean hn x hx hN)

/-! ### The guarded reciprocal square root -/

theorem cmp_ogt_zero_of_pos {d : EReal} (h : 0 < d) : Ideal.cmp .ogt d 0 = 1#1 := by
  simp [Ideal.cmp, h]

theorem cmp_ogt_zero_of_not_pos {d : EReal} (h : ¬ 0 < d) : Ideal.cmp .ogt d 0 = 0#1 := by
  simp [Ideal.cmp, h]

/-- "if d > 0 then 1 / √(if d > 0 then d else 1) else 0" for a real d is a nonnegative real: the inner
    selection is a positive real in both cases. -/
theorem guarded_rsqrt_real_nonneg {d : EReal} (hd : IsReal d) :
    ∃ r : ℝ, 0 ≤ r ∧
      Scalar.select (Ideal.cmp .ogt d 0)
        (Ideal.div 1 (Ideal.sqrt (Scalar.select (Ideal.cmp .ogt d 0) d 1))) 0 = (r : EReal) := by
  obtain ⟨a, rfl⟩ := hd
  by_cases h : (0 : EReal) < (a : EReal)
  · have ha : 0 < a := by exact_mod_cast h
    rw [cmp_ogt_zero_of_pos h]
    refine ⟨1 / Real.sqrt a, by positivity, ?_⟩
    simp only [Scalar.select, if_true]
    exact one_div_sqrt_coe a ha
  · rw [cmp_ogt_zero_of_not_pos h]
    refine ⟨0, le_refl _, ?_⟩
    simp [Scalar.select]

theorem isReal_guarded_rsqrt {d : EReal} (hd : IsReal d) :
    IsReal (Scalar.select (Ideal.cmp .ogt d 0)
      (Ideal.div 1 (Ideal.sqrt (Scalar.select (Ideal.cmp .ogt d 0) d 1))) 0) := by
  obtain ⟨r, _, hr⟩ := guarded_rsqrt_real_nonneg hd
  exact ⟨r, hr⟩

end Cert.Lib.BatchNorm

end
-- ==== Proof.Consts.lean ====
/-
  The float constants the two programs spell, as the extended reals their patterns denote: 0, 1, the row count 50000,
  and the small positive number added to the variance before the reciprocal square root.
-/
import Idealize.ShloMosaic.PureOps.Ideal

noncomputable section

namespace Cert.GcnNorm.Consts

open Idealize.ShloMosaic

/-- The zero pattern denotes 0. -/
theorem ofBits_zero : Ideal.ofBits .f32 0x00000000#32 = 0 := by
  simp [Ideal.ofBits, Ideal.ieee]

/-- The pattern of 1.0 denotes 1. -/
theorem ofBits_one : Ideal.ofBits .f32 0x3F800000#32 = ((1 : ℝ) : EReal) := by
  simp [Ideal.ofBits, Ideal.ieee, -EReal.coe_mul]; norm_num

/-- The pattern of 50000.0 denotes the real 50000. -/
theorem ofBits_rows : Ideal.ofBits .f32 0x47435000#32 = ((50000 : ℝ) : EReal) := by
  simp [Ideal.ofBits, Ideal.ieee, -EReal.coe_mul]; norm_num

/-- The pattern added to the variance denotes a positive real. -/
theorem ofBits_eps_pos : ∃ e : ℝ, 0 < e ∧ Ideal.ofBits .f32 0x3727C5AC#32 = (e : EReal) := by
  simp [Ideal.ofBits, Ideal.ieee, -EReal.coe_mul]

end Cert.GcnNorm.Consts

end
-- ==== Proof.NormSpec.lean ====
/-
  Normalising the columns of an array of 50000 rows, on the extended reals.

  For H : [50000, 128] put, per column c,
      μ c  = (Σ_k H (k, c)) / 50000                      the mean,
      σ²_M c = (Σ_k H (k, c)²) / 50000 − μ c · μ c          the variance from the first two moments,
      σ²_C c = (Σ_k (H (k, c) − μ c)²) / 50000              the variance from the centred entries,
  and for an entry h of column c, a row entry x, a gain g and an offset b,
      out = x + max (((h − μ) · (σ² + ε)^(−1/2)) · g + b) 0 .
  When every entry of H is a real number the two variances are the same number (expand the square and use
  Σ_k H (k, c) = 50000 · μ c); over the extended reals in general they are not (∞ − ∞ does not cancel), which is why
  the entries' finiteness is asked for. The divisor and ε are the values of the two programs' float constants.
-/
import Idealize.ShloMosaic.PureOps.Ideal
import Idealize.ShloMosaic.Lib.ValueIdx
import proofs.«100572_j75677323756038_1_alg».proof.Proof.LibRealSum
import proofs.«100572_j75677323756038_1_alg».proof.Proof.LibBatchNorm
import proofs.«100572_j75677323756038_1_alg».proof.Proof.Consts

noncomputable section

namespace Cert.GcnNorm

open Idealize.ShloMosaic Idealize.ShloMosaic.ValueIdx Cert.LibRealSum

/-- An array of 50000 rows of 128 extended reals. -/
abbrev Mat := (⟨2, ![50000, 128]⟩ : Shape).Idx → EReal

/-- The row count, as the programs' constant. -/
def rowsC : EReal := Ideal.ofBits .f32 0x47435000#32
/-- The small constant added to the variance, as the programs' constant. -/
def epsC : EReal := Ideal.ofBits .f32 0x3727C5AC#32

/-- The mean of column c. -/
def mu (H : Mat) (c : Fin 128) : EReal := Ideal.div (∑ k : Fin 50000, H (ix2 k c)) rowsC
/-- The variance of column c from its first two moments. -/
def varM (H : Mat) (c : Fin 128) : EReal :=
  Ideal.div (∑ k : Fin 50000, H (ix2 k c) * H (ix2 k c)) rowsC - mu H c * mu H c
/-- The variance of column c from its centred entries. -/
def varC (H : Mat) (c : Fin 128) : EReal :=
  Ideal.div (∑ k : Fin 50000, (H (ix2 k c) - mu H c) * (H (ix2 k c) - mu H c)) rowsC

/-- One entry of the result: the input entry plus the normalised, scaled, shifted entry cut at zero. -/
def outAt (x h m v g b : EReal) : EReal := x + max ((h - m) * Ideal.rsqrt (v + epsC) * g + b) 0

/-- For real entries the two variances agree. -/
theorem varM_eq_varC (H : Mat) (hH : ∀ i, IsReal (H i)) (c : Fin 128) : varM H c = varC H c :=
  Cert.Lib.BatchNorm.varMoments_eq_varCentred (n := 50000) (by norm_num) (fun k => H (ix2 k c)) (fun k => hH _)
    (N := rowsC) (by unfold rowsC; rw [Consts.ofBits_rows]; norm_num)

end Cert.GcnNorm

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibColMoments.lean ====
/-
  Sums down the columns of a kernel's arrays, read at an index, over the extended reals.

  A two-axis array x : [R, C] summed along its first axis from zero and viewed as one row [1, C] reads, at (0, c),
  the plain sum Σ_r x (r, c). A three-axis array y : [B, S, C] summed along its first axis from zero reads, at (s, c),
  the sum Σ_b y (b, s, c). Only the definition of the reduction as a sum over the reduced axis is used, so nothing here
  needs finiteness.
-/
import Mathlib
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.Lib.ColMoments

open Idealize.ShloMosaic Idealize.ShloMosaic.ValueIdx

variable {R C B S : Nat}

/-- The reduced index c with row r put back is (r, c). -/
theorem lift_col (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext a; apply Fin.ext
  fin_cases a <;> rfl

/-- The reduced index (s, c) with the leading coordinate b put back is (b, s, c). -/
theorem lift_lead (h : (⟨3, ![B, S, C]⟩ : Shape).Reduces [0] (⟨2, ![S, C]⟩ : Shape)) (s : Fin S) (c : Fin C)
    (k : Fin ((⟨3, ![B, S, C]⟩ : Shape).size 0)) : h.lift (ix2 s c) k = ix3 (⟨k.val, k.isLt⟩ : Fin B) s c := by
  funext a; apply Fin.ext
  fin_cases a <;> rfl

/-- A kernel's sum along axis 0 of [R, C] from zero, at column c. -/
theorem colSum_apply (x : FVec Ideal ⟨2, ![R, C]⟩ .f32) (acc : BitVec 32)
    (h : (⟨2, ![R, C]⟩ : Shape).Reduces [0] (⟨1, ![C]⟩ : Shape)) (hφ : FKind.Formats .f32)
    (hacc : acc = FKind.add.neutral .f32 hφ) (c : Fin C) :
    multiReduction .add [0] (⟨1, ![C]⟩ : Shape) x acc h hφ hacc (ix1 c) = ∑ r : Fin R, x (ix2 r c) := by
  refine (Ideal.multiReduction_add_single x acc h hφ hacc (ix1 c)).trans ?_
  refine Finset.sum_congr rfl fun k _ => ?_
  exact congrArg x (lift_col h c k)

/-- The same sum viewed as one row [1, C], at (u, c). -/
theorem colSum_row_apply (x : FVec Ideal ⟨2, ![R, C]⟩ .f32) (acc : BitVec 32)
    (h : (⟨2, ![R, C]⟩ : Shape).Reduces [0] (⟨1, ![C]⟩ : Shape)) (hφ : FKind.Formats .f32)
    (hacc : acc = FKind.add.neutral .f32 hφ) (hc : (⟨1, ![C]⟩ : Shape).ShapeCasts ⟨2, ![1, C]⟩) (u : Fin 1) (c : Fin C) :
    shapeCast (⟨2, ![1, C]⟩ : Shape) (multiReduction .add [0] (⟨1, ![C]⟩ : Shape) x acc h hφ hacc) hc (ix2 u c)
      = ∑ r : Fin R, x (ix2 r c) :=
  (shapeCast_a_1a_apply _ hc u c).trans (colSum_apply x acc h hφ hacc c)

/-- A kernel's sum along axis 0 of [B, S, C] from zero, at (s, c). -/
theorem leadSum_apply (y : FVec Ideal ⟨3, ![B, S, C]⟩ .f32) (acc : BitVec 32)
    (h : (⟨3, ![B, S, C]⟩ : Shape).Reduces [0] (⟨2, ![S, C]⟩ : Shape)) (hφ : FKind.Formats .f32)
    (hacc : acc = FKind.add.neutral .f32 hφ) (s : Fin S) (c : Fin C) :
    multiReduction .add [0] (⟨2, ![S, C]⟩ : Shape) y acc h hφ hacc (ix2 s c) = ∑ b : Fin B, y (ix3 b s c) := by
  refine (Ideal.multiReduction_add_single y acc h hφ hacc (ix2 s c)).trans ?_
  refine Finset.sum_congr rfl fun k _ => ?_
  exact congrArg y (lift_lead h s c k)

end Cert.Lib.ColMoments

end
-- ==== Proof.Payloads.lean ====
/-
  What the three kernel bodies compute, entry by entry, over the extended reals.

  First body: the product of a block of 2000 rows with the whole (transposed) weight matrix, accumulated from zero — a
  change of float format is the identity here — is the same block of rows of the whole product. Second body: the block
  plus the bias row; the running column sums and column sums of squares, each the previous row plus the block's column
  sum (started from the zero row at the first block). Third body: one entry of the normalised, scaled, shifted block
  cut at zero and added to the input block.
-/
import proofs.«100572_j75677323756038_1_alg».proof.Proof.Gen.KernelIdeal.Skeleton
import proofs.«100572_j75677323756038_1_alg».proof.Proof.NormSpec
import proofs.«100572_j75677323756038_1_alg».proof.Proof.LibDotRows
import proofs.«100572_j75677323756038_1_alg».proof.Proof.LibColMoments
import Idealize.ShloMosaic.Lib.Pipeline.Value
import Idealize.ShloMosaic.Lib.ValueIdx
import Idealize.ShloMosaic.Lib.ValueLayout

noncomputable section

namespace Cert.KernelIdeal.Pay

open Cert.KernelIdeal Cert.KernelIdeal.Gen Idealize.ShloMosaic Idealize.ShloMosaic.ValueIdx
open Cert.GcnNorm Cert.GcnNorm.Consts

/-- The first body's product of a block of rows is the block of rows of the whole product. -/
theorem pay_matmul (xb : FVec Ideal S2000x128 .f32) (w : FVec Ideal S128x128 .f32) (x : FVec Ideal S50000x128 .f32)
    (r0 : Nat) (p : Fin 2000) (q : Fin 128) (hp : r0 + p.val < 50000)
    (hx : ∀ k : Fin 128, xb (ix2 p k) = x (ix2 ⟨r0 + p.val, hp⟩ k)) :
    k0_pay1 xb w (ix2 p q) = Host.dotGeneral (F := Ideal) (DotDims.plain 50000 128 128) none x w (ix2 ⟨r0 + p.val, hp⟩ q) := by
  unfold k0_pay1
  show matmul (F := Ideal) (DotDims.plain 2000 128 128) none xb (shapeCast S128x128 w shapeCasts_S128x128_S128x128) (constant ⟨2, ![2000, 128]⟩ .f32 0x00000000#32) (ix2 p q) = _
  rw [shapeCast_self]
  exact Cert.Lib.DotRows.matmul_rows x w xb r0 p q hp hx

/-- The second body's first result: the block plus the bias row. -/
theorem pay_bias (v3 : Vec Ideal S2000x128 .f32) (v5 : Vec Ideal S1x128 .f32) (p : Fin 2000) (q : Fin 128) :
    k1_pay3 v3 v5 (ix2 p q) = v3 (ix2 p q) + v5 (ix2 (0 : Fin 1) q) := by
  unfold k1_pay3
  show (shapeCast S2000x128 v3 shapeCasts_S2000x128_S2000x128) (ix2 p q) + broadcastTo S2000x128 (shapeCast S1x128 v5 shapeCasts_S1x128_S1x128) broadcasts_S1x128_S2000x128 (ix2 p q) = _
  rw [shapeCast_self, shapeCast_self, broadcastTo_1b_ab_apply]

/-- The running column sums: the previous row plus the block's column sums. -/
theorem pay_sum (v3 : Vec Ideal S2000x128 .f32) (v5 v10 : Vec Ideal S1x128 .f32) (u : Fin 1) (q : Fin 128) :
    k1_pay4 v3 v5 v10 (ix2 u q) = v10 (ix2 u q) + ∑ p : Fin 2000, k1_pay3 v3 v5 (ix2 p q) := by
  unfold k1_pay4
  show (shapeCast S1x128 v10 shapeCasts_S1x128_S1x128) (ix2 u q) + shapeCast S1x128 (multiReduction .add [0] S128 (k1_pay3 v3 v5) 0x00000000#32 reduces_S2000x128_S128 (.inl rfl) rfl) shapeCasts_S128_S1x128 (ix2 u q) = _
  rw [shapeCast_self]
  exact congrArg (fun s => v10 (ix2 u q) + s) (Cert.Lib.ColMoments.colSum_row_apply (k1_pay3 v3 v5) _ reduces_S2000x128_S128 (.inl rfl) rfl shapeCasts_S128_S1x128 u q)

/-- The running column sums of squares. -/
theorem pay_sumsq (v3 : Vec Ideal S2000x128 .f32) (v5 v16 : Vec Ideal S1x128 .f32) (u : Fin 1) (q : Fin 128) :
    k1_pay5 v3 v5 v16 (ix2 u q) = v16 (ix2 u q) + ∑ p : Fin 2000, k1_pay3 v3 v5 (ix2 p q) * k1_pay3 v3 v5 (ix2 p q) := by
  unfold k1_pay5
  show (shapeCast S1x128 v16 shapeCasts_S1x128_S1x128) (ix2 u q) + shapeCast S1x128 (multiReduction .add [0] S128 (mulf (k1_pay3 v3 v5) (k1_pay3 v3 v5)) 0x00000000#32 reduces_S2000x128_S128 (.inl rfl) rfl) shapeCasts_S128_S1x128 (ix2 u q) = _
  rw [shapeCast_self]
  exact congrArg (fun s => v16 (ix2 u q) + s) (Cert.Lib.ColMoments.colSum_row_apply (mulf (k1_pay3 v3 v5) (k1_pay3 v3 v5)) _ reduces_S2000x128_S128 (.inl rfl) rfl shapeCasts_S128_S1x128 u q)

/-- The rows the first block starts the sums from are zero. -/
theorem pay_zero1 (i : S1x128.Idx) : k1_pay1 (F := Ideal) i = 0 := by
  unfold k1_pay1
  show Ideal.ofBits .f32 0x00000000#32 = 0
  exact ofBits_zero

theorem pay_zero2 (i : S1x128.Idx) : k1_pay2 (F := Ideal) i = 0 := by
  unfold k1_pay2
  show Ideal.ofBits .f32 0x00000000#32 = 0
  exact ofBits_zero

/-- The third body's result at an entry. -/
theorem pay_norm (v0 : Vec Ideal S2000x128 .f32) (v2 v4 v6 v8 : Vec Ideal S1x128 .f32) (v21 : Vec Ideal S2000x128 .f32)
    (p : Fin 2000) (q : Fin 128) :
    k2_pay1 v0 v2 v4 v6 v8 v21 (ix2 p q)
      = outAt (v21 (ix2 p q)) (v0 (ix2 p q)) (v2 (ix2 (0 : Fin 1) q)) (v4 (ix2 (0 : Fin 1) q)) (v6 (ix2 (0 : Fin 1) q)) (v8 (ix2 (0 : Fin 1) q)) := by
  unfold k2_pay1 outAt epsC
  show v21 (ix2 p q) + max ((((shapeCast S2000x128 v0 shapeCasts_S2000x128_S2000x128) (ix2 p q) - broadcastTo S2000x128 (shapeCast S1x128 v2 shapeCasts_S1x128_S1x128) broadcasts_S1x128_S2000x128 (ix2 p q)) * broadcastTo S2000x128 (rsqrt (addf (shapeCast S1x128 v4 shapeCasts_S1x128_S1x128) (broadcast S1x128 (Scalar.ofBits (F := Ideal) .f32 0x3727C5AC#32)))) broadcasts_S1x128_S2000x128 (ix2 p q)) * broadcastTo S2000x128 (shapeCast S1x128 v6 shapeCasts_S1x128_S1x128) broadcasts_S1x128_S2000x128 (ix2 p q) + broadcastTo S2000x128 (shapeCast S1x128 v8 shapeCasts_S1x128_S1x128) broadcasts_S1x128_S2000x128 (ix2 p q)) (Ideal.ofBits .f32 0x00000000#32) = _
  rw [shapeCast_self, shapeCast_self, shapeCast_self, shapeCast_self, shapeCast_self, broadcastTo_1b_ab_apply, broadcastTo_1b_ab_apply, broadcastTo_1b_ab_apply, broadcastTo_1b_ab_apply, ofBits_zero]
  rfl

end Cert.KernelIdeal.Pay

end
-- ==== Proof.XwValue.lean ====
/-
  What the first launch leaves in its result array: the rows times the transposed weight matrix.

  The launch has 25 grid points; point t is handed rows 2000·t … 2000·t + 1999 of the row array and the whole weight
  matrix, and writes back the product of the two as rows 2000·t … of the result. A block of rows of a product is the
  product of the block of rows, so each write-back is the matching block of the one whole product; the 25 blocks cover
  the result array, which therefore ends holding the whole product.
-/
import proofs.«100572_j75677323756038_1_alg».proof.Proof.Gen.KernelIdeal.Frame
import Idealize.ShloMosaic.Lib.Pipeline.Value
import Idealize.ShloMosaic.Lib.ValueIdx
import proofs.«100572_j75677323756038_1_alg».proof.Proof.Payloads
set_option maxRecDepth 16384

noncomputable section

namespace Cert.KernelIdeal.Xw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Pay

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The host's product of an array [50000, 128] with a matrix [128, 128]. -/
def prod (x : FVec Ideal S50000x128 .f32) (w : FVec Ideal S128x128 .f32) : FVec Ideal S50000x128 .f32 :=
  Host.dotGeneral (F := Ideal) (DotDims.plain 50000 128 128) none x w

/-- The printed index maps over the grid: the row windows move one block of rows per point, the matrix stays. -/
theorem idx_facts0 : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem lt_rows (t : Fin cfg0.N) (p : Fin 2000) : t.val * 2000 + p.val < 50000 := by
  have h1 : t.val < 25 := Nat.lt_of_lt_of_eq t.isLt N_0
  have h2 := p.isLt
  omega

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v33).slice (win0_2.rect t)).set ↔ _
  rw [View.set_slice_whole, Rect.mem_set_unit]
  exact Iff.rfl

/-- Every row of the result array is in the block of the point its row number divided by 2000 names. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have ht : (i 0).val / 2000 < cfg0.N := Nat.lt_of_lt_of_eq (by omega : (i 0).val / 2000 < 25) hN.symm
  have ef := idx_facts0 ⟨(i 0).val / 2000, ht⟩
  have e4 : win0_2.index ⟨(i 0).val / 2000, ht⟩ (0 : Fin 2) = (i 0).val / 2000 := ef.2.2.1
  have e5 : win0_2.index ⟨(i 0).val / 2000, ht⟩ (1 : Fin 2) = 0 := ef.2.2.2
  refine ⟨⟨(i 0).val / 2000, ht⟩, flush0_2 _, ?_⟩
  rw [mem_blk]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; omega
  | ⟨1, _⟩ => show win0_2.index ⟨(i 0).val / 2000, ht⟩ (1 : Fin 2) * 128 ≤ (i 1).val ∧ (i 1).val < win0_2.index ⟨(i 0).val / 2000, ht⟩ (1 : Fin 2) * 128 + 128; omega

/-- What point `t` writes back is block `t` of the whole product. -/
theorem flushed2_eq (t : Fin cfg0.N) :
    (dat0 V c).flushed 2 t = ((cfg0.win 2).blk t).view.read (Elt Ideal) (prod (V c main_arg0) (V c main_v32)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨⟨e0, e1⟩, ⟨e2, e3⟩, e4, e5⟩ := idx_facts0 t
  funext j
  obtain ⟨p, q, rfl⟩ : ∃ (p : Fin 2000) (q : Fin 128), j = ix2 p q := ⟨j 0, j 1, eq_ix2 j⟩
  have hp := lt_rows t p
  show k0_pay1 (iblk0 V c 0 t) (iblk0 V c 1 t) (ix2 p q) = prod (V c main_arg0) (V c main_v32) (((cfg0.win 2).blk t).view.emb (ix2 p q))
  have hemb : ((cfg0.win 2).blk t).view.emb (ix2 p q) = ix2 ⟨t.val * 2000 + p.val, hp⟩ q :=
    funext (fun a => by
      apply Fin.ext
      match a with
      | ⟨0, _⟩ => show win0_2.index t (0 : Fin 2) * 2000 + 1 * p.val = t.val * 2000 + p.val; omega
      | ⟨1, _⟩ => show win0_2.index t (1 : Fin 2) * 128 + 1 * q.val = q.val; omega)
  rw [hemb]
  have hw : iblk0 V c 1 t = V c main_v32 := by
    funext y
    show V c main_v32 (((cfg0.win 1).blk t).view.emb y) = V c main_v32 y
    refine congrArg _ (funext fun a => ?_)
    apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  rw [hw]
  exact pay_matmul (iblk0 V c 0 t) (V c main_v32) (V c main_arg0) (t.val * 2000) p q hp (fun k => by
    show V c main_arg0 (((cfg0.win 0).blk t).view.emb (ix2 p k)) = V c main_arg0 (ix2 ⟨t.val * 2000 + p.val, hp⟩ k)
    exact congrArg _ (funext (fun a => by
      apply Fin.ext
      match a with
      | ⟨0, _⟩ => show win0_0.index t (0 : Fin 2) * 2000 + 1 * p.val = t.val * 2000 + p.val; omega
      | ⟨1, _⟩ => show win0_0.index t (1 : Fin 2) * 128 + 1 * k.val = k.val; omega)))

/-- The result array after the launch: the whole product. -/
theorem final : (dat0 V c).arrAt 2 cfg0.N = prod (V c main_arg0) (V c main_v32) :=
  (dat0 V c).arrAt_eq_of_cover 2 _ (fun t _ => flushed2_eq V c t) cover

end Cert.KernelIdeal.Xw
end
-- ==== Proof.Pieces.lean ====
/-
  What the second body leaves in its three result buffers, in each of its two cases.

  At the first grid point the body first stores the zero row into both sum rows; at every point it then stores the
  block plus the bias, reads the sum rows back, and stores each plus the block's column sum (of the entries, of their
  squares). A store through a whole buffer, made last, leaves its payload whatever was stored before, and a load after
  the one store of the zero row reads the zero row. So: the first result is the block plus the bias in both cases; the
  sum rows are the payloads over the zero row at the first point, over the running rows at every later point.
-/
import proofs.«100572_j75677323756038_1_alg».proof.Proof.Gen.KernelIdeal.Frame
import Idealize.ShloMosaic.Lib.Pipeline.Value
set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz : (![0, 0] : Fin 2 → Nat) = fun _ => 0 := funext fun a => by fin_cases a <;> rfl

variable (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole)

theorem out1_A_2_eq (hc0 : cond1_0 i) (x0 : Vec F S2000x128 .f32) (x1 : Vec F S1x128 .f32) :
    out1_A_2 (F := F) c i arg1 harg1 arg2 harg2 arg3 harg3 arg4 harg4 arg5 harg5 hc0 x0 x1 = k1_pay3 x0 x1 := by
  unfold out1_A_2
  rw [View.read_writes_eq_canon _ _ _ (cover1_A_2 c i arg1 harg1 arg2 harg2 arg3 harg3 arg4 harg4 arg5 harg5 hc0 x0 x1)]
  unfold kernelRun1_A
  dsimp only
  sl_unfold_words
  rw [View.canon_unit_zero hz]
  simp only [View.readAt_eq_ld, harg1.read_unread, harg2.read_unread, harg4.read_unread, harg5.read_unread, View.ld_unit_zero (S := S2000x128) hz, View.ld_unit_zero (S := S1x128) hz]

theorem out1_A_3_eq (hc0 : cond1_0 i) (x0 : Vec F S2000x128 .f32) (x1 : Vec F S1x128 .f32) :
    out1_A_3 (F := F) c i arg1 harg1 arg2 harg2 arg3 harg3 arg4 harg4 arg5 harg5 hc0 x0 x1 = k1_pay4 x0 x1 k1_pay1 := by
  unfold out1_A_3
  rw [View.read_writes_eq_canon _ _ _ (cover1_A_3 c i arg1 harg1 arg2 harg2 arg3 harg3 arg4 harg4 arg5 harg5 hc0 x0 x1)]
  unfold kernelRun1_A
  dsimp only
  sl_unfold_words
  rw [View.canon_cons_unit_zero hz]
  rw [View.readCov_unit_zero _ hz]
  simp only [View.readAt_eq_ld, harg1.read_unread, harg2.read_unread, harg4.read_unread, harg5.read_unread, View.ld_unit_zero (S := S2000x128) hz, View.ld_unit_zero (S := S1x128) hz]

theorem out1_A_4_eq (hc0 : cond1_0 i) (x0 : Vec F S2000x128 .f32) (x1 : Vec F S1x128 .f32) :
    out1_A_4 (F := F) c i arg1 harg1 arg2 harg2 arg3 harg3 arg4 harg4 arg5 harg5 hc0 x0 x1 = k1_pay5 x0 x1 k1_pay2 := by
  unfold out1_A_4
  rw [View.read_writes_eq_canon _ _ _ (cover1_A_4 c i arg1 harg1 arg2 harg2 arg3 harg3 arg4 harg4 arg5 harg5 hc0 x0 x1)]
  unfold kernelRun1_A
  dsimp only
  sl_unfold_words
  rw [View.canon_cons_unit_zero hz]
  rw [View.readCov_unit_zero _ hz]
  simp only [View.readAt_eq_ld, harg1.read_unread, harg2.read_unread, harg4.read_unread, harg5.read_unread, View.ld_unit_zero (S := S2000x128) hz, View.ld_unit_zero (S := S1x128) hz]

theorem out1_B_2_eq (hc0 : ¬cond1_0 i) (x0 : Vec F S2000x128 .f32) (x1 : Vec F S1x128 .f32) (xo3 : Vec F S1x128 .f32) (xo4 : Vec F S1x128 .f32) :
    out1_B_2 (F := F) c i arg1 harg1 arg2 harg2 arg3 harg3 arg4 harg4 arg5 harg5 hc0 x0 x1 xo3 xo4 = k1_pay3 x0 x1 := by
  unfold out1_B_2
  rw [View.read_writes_eq_canon _ _ _ (cover1_B_2 c i arg1 harg1 arg2 harg2 arg3 harg3 arg4 harg4 arg5 harg5 hc0 x0 x1 xo3 xo4)]
  unfold kernelRun1_B
  dsimp only
  sl_unfold_words
  rw [View.canon_unit_zero hz]
  simp only [View.readAt_eq_ld, harg1.read_unread, harg2.read_unread, harg4.read_unread, harg5.read_unread, View.ld_unit_zero (S := S2000x128) hz, View.ld_unit_zero (S := S1x128) hz]

theorem out1_B_3_eq (hc0 : ¬cond1_0 i) (x0 : Vec F S2000x128 .f32) (x1 : Vec F S1x128 .f32) (xo3 : Vec F S1x128 .f32) (xo4 : Vec F S1x128 .f32) :
    out1_B_3 (F := F) c i arg1 harg1 arg2 harg2 arg3 harg3 arg4 harg4 arg5 harg5 hc0 x0 x1 xo3 xo4 = k1_pay4 x0 x1 xo3 := by
  unfold out1_B_3
  rw [View.read_writes_eq_canon _ _ _ (cover1_B_3 c i arg1 harg1 arg2 harg2 arg3 harg3 arg4 harg4 arg5 harg5 hc0 x0 x1 xo3 xo4)]
  unfold kernelRun1_B
  dsimp only
  sl_unfold_words
  rw [View.canon_unit_zero hz]
  simp only [View.readAt_eq_ld, harg1.read_unread, harg2.read_unread, harg4.read_unread, harg5.read_unread, View.ld_unit_zero (S := S2000x128) hz, View.ld_unit_zero (S := S1x128) hz]

theorem out1_B_4_eq (hc0 : ¬cond1_0 i) (x0 : Vec F S2000x128 .f32) (x1 : Vec F S1x128 .f32) (xo3 : Vec F S1x128 .f32) (xo4 : Vec F S1x128 .f32) :
    out1_B_4 (F := F) c i arg1 harg1 arg2 harg2 arg3 harg3 arg4 harg4 arg5 harg5 hc0 x0 x1 xo3 xo4 = k1_pay5 x0 x1 xo4 := by
  unfold out1_B_4
  rw [View.read_writes_eq_canon _ _ _ (cover1_B_4 c i arg1 harg1 arg2 harg2 arg3 harg3 arg4 harg4 arg5 harg5 hc0 x0 x1 xo3 xo4)]
  unfold kernelRun1_B
  dsimp only
  sl_unfold_words
  rw [View.canon_unit_zero hz]
  simp only [View.readAt_eq_ld, harg1.read_unread, harg2.read_unread, harg4.read_unread, harg5.read_unread, View.ld_unit_zero (S := S2000x128) hz, View.ld_unit_zero (S := S1x128) hz]

end Cert.KernelIdeal.Pieces
end
-- ==== Proof.LibMomentNorm.lean ====
/-
  Normalising a column of real numbers by its first two moments with a reciprocal square root, over the extended reals.

  For real entries x_1, …, x_n (n > 0), a real gain g, a real offset b and a positive real ε, put
      m = (Σ_j x_j) / n ,      q = (Σ_j x_j · x_j) / n ,      s = g · (q − m · m + ε)^(−1/2) .
  The variance q − m · m equals the mean of the squared deviations, so it is a nonnegative real; hence q − m · m + ε is a
  positive real, its reciprocal square root is a real, and so is s. For real numbers the product distributes over the
  difference, so the two arrangements
      x_i · s + (b − m · s)        and        (x_i − m) · s + b
  agree, and their common value is a real number. (Over the extended reals in general both steps fail: the reciprocal
  square root of 0 is +∞, and ∞ − ∞ does not cancel.)

  Also here: a sum over J · n consecutive positions is the sum over the J blocks of the sums over each block's n
  positions; and a product with the reciprocal 1/k of a nonzero real k is the quotient by k, on every extended real.
-/
import Mathlib
import Idealize.ShloMosaic.PureOps.Ideal
import Idealize.ShloMosaic.PureOps.Ideal.Laws
import proofs.«100572_j75677323756038_1_alg».proof.Proof.LibRealSum
import proofs.«100572_j75677323756038_1_alg».proof.Proof.LibBatchNorm

noncomputable section

open scoped BigOperators
open Idealize.ShloMosaic
open Cert.LibRealSum Cert.Lib.BatchNorm

namespace Cert.Lib.MomentNorm

/-- The reciprocal square root of a positive real is the real (√w)⁻¹. -/
theorem rsqrt_coe_of_pos (w : ℝ) (hw : 0 < w) : Ideal.rsqrt (w : EReal) = (((Real.sqrt w)⁻¹ : ℝ) : EReal) := by
  rw [Ideal.rsqrt_coe, if_neg (not_lt.mpr hw.le), if_neg hw.ne']

/-- The scale g · (v + ε)^(−1/2) as a function of the gain, the mean and the second moment. -/
def scale (eps g m q : EReal) : EReal := g * Ideal.rsqrt (q - m * m + eps)

section
variable {n : ℕ} (hn : 0 < n) (x : Fin n → EReal) (hx : ∀ j, IsReal (x j)) {N g be eps : EReal}
  (hN : N = ((n : ℝ) : EReal)) (hg : IsReal g) (hbe : IsReal be) (heps : ∃ e : ℝ, 0 < e ∧ eps = (e : EReal))
include hn hx hN heps

/-- The variance from the moments plus ε is a positive real. -/
theorem momentVar_add_eps_pos :
    ∃ w : ℝ, 0 < w ∧
      Ideal.div (∑ j, x j * x j) N - Ideal.div (∑ j, x j) N * Ideal.div (∑ j, x j) N + eps = (w : EReal) := by
  rw [varMoments_eq_varCentred hn x hx hN]
  exact varCentred_add_eps_pos hn x hx hN heps

include hg

/-- The scale is a real. -/
theorem isReal_scale : IsReal (scale eps g (Ideal.div (∑ j, x j) N) (Ideal.div (∑ j, x j * x j) N)) := by
  obtain ⟨w, hw0, hw⟩ := momentVar_add_eps_pos hn x hx hN heps
  unfold scale
  rw [hw, rsqrt_coe_of_pos w hw0]
  exact hg.mul (isReal_coe _)

include hbe

/-- THE LAW: scale-and-shift is normalise-then-scale. -/
theorem shift_eq_centred (i : Fin n) :
    x i * scale eps g (Ideal.div (∑ j, x j) N) (Ideal.div (∑ j, x j * x j) N)
        + (be - Ideal.div (∑ j, x j) N * scale eps g (Ideal.div (∑ j, x j) N) (Ideal.div (∑ j, x j * x j) N))
      = (x i - Ideal.div (∑ j, x j) N) * scale eps g (Ideal.div (∑ j, x j) N) (Ideal.div (∑ j, x j * x j) N) + be :=
  affine_eq (hx i) (isReal_scale hn x hx hN hg heps) hbe (isReal_mean hn x hx hN)

/-- The normalised entry is a real. -/
theorem isReal_centred (i : Fin n) :
    IsReal ((x i - Ideal.div (∑ j, x j) N) * scale eps g (Ideal.div (∑ j, x j) N) (Ideal.div (∑ j, x j * x j) N) + be) :=
  ((isReal_sub (hx i) (isReal_mean hn x hx hN)).mul (isReal_scale hn x hx hN hg heps)).add hbe

end

/-! ### The two arrangements, cut off below at zero -/

/-- max (h · s + (b − m · s)) 0 with s the scale. -/
def shiftCut (eps g b m q h : EReal) : EReal := max (h * scale eps g m q + (b - m * scale eps g m q)) 0

/-- max ((h − m) · s + b) 0 with s the scale. -/
def centreCut (eps g b m q h : EReal) : EReal := max ((h - m) * scale eps g m q + b) 0

section
variable {n : ℕ} (hn : 0 < n) (x : Fin n → EReal) (hx : ∀ j, IsReal (x j)) {N g be eps : EReal}
  (hN : N = ((n : ℝ) : EReal)) (hg : IsReal g) (hbe : IsReal be) (heps : ∃ e : ℝ, 0 < e ∧ eps = (e : EReal))
include hn hx hN hg hbe heps

/-- For a column of reals with its own mean and second moment, the two arrangements agree. -/
theorem shiftCut_eq_centreCut (i : Fin n) :
    shiftCut eps g be (Ideal.div (∑ j, x j) N) (Ideal.div (∑ j, x j * x j) N) (x i)
      = centreCut eps g be (Ideal.div (∑ j, x j) N) (Ideal.div (∑ j, x j * x j) N) (x i) :=
  congrArg (fun t => max t 0) (shift_eq_centred hn x hx hN hg hbe heps i)

/-- … and the value is a real. -/
theorem isReal_centreCut (i : Fin n) :
    IsReal (centreCut eps g be (Ideal.div (∑ j, x j) N) (Ideal.div (∑ j, x j * x j) N) (x i)) :=
  isReal_max (isReal_centred hn x hx hN hg hbe heps i) isReal_zero

end

/-! ### A sum cut into equal blocks -/

/-- The position b·n + p lies below J·n when b < J and p < n. -/
theorem pos_lt {J n b p : Nat} (hb : b < J) (hp : p < n) : b * n + p < J * n := by
  have h1 : (b + 1) * n ≤ J * n := Nat.mul_le_mul_right n hb
  have h2 : (b + 1) * n = b * n + n := Nat.succ_mul b n
  omega

/-- A sum over J·n positions is the sum over the J blocks of the sums over each block's n positions. -/
theorem sum_blocks {M : Type*} [AddCommMonoid M] {N : Nat} (J n : Nat) (hN : N = J * n) (f : Fin N → M) :
    ∑ b : Fin J, ∑ p : Fin n, f ⟨b.val * n + p.val, by rw [hN]; exact pos_lt b.isLt p.isLt⟩ = ∑ r : Fin N, f r := by
  subst hN
  rw [← finProdFinEquiv.sum_comp, Fintype.sum_prod_type]
  refine Finset.sum_congr rfl fun b _ => Finset.sum_congr rfl fun p _ => congrArg f (Fin.ext ?_)
  simp [finProdFinEquiv, Nat.mul_comm, Nat.add_comm]

/-! ### A reciprocal as a divisor -/

/-- The product with 1/k is the quotient by k, for a nonzero real k, on every extended real. -/
theorem mul_inv_eq_div (x : EReal) (k : ℝ) (hk : k ≠ 0) : x * ((1 / k : ℝ) : EReal) = Ideal.div x (k : EReal) :=
  (Ideal.div_coe hk x).symm

end Cert.Lib.MomentNorm

end
-- ==== Proof.MomentsValue.lean ====
/-
  What the second launch leaves in its three result arrays: the biased rows, their column sums, and the column sums of
  their squares.

  Point t of the 25 is handed rows 2000·t … of the aggregated array and the bias row. It writes back the block plus the
  bias as rows 2000·t … of the first result. The two sum rows stay in their buffers across the points: the first
  point starts them from the zero row, every point adds its block's column sums (of the entries, of their squares), and
  only the last point writes them back. By induction over the points the rows hold, after point n, the sums over the
  blocks 0 … n; the 25 blocks of 2000 rows are all 50000 rows, so what is written back is the column sum over every row.
-/
import proofs.«100572_j75677323756038_1_alg».proof.Proof.Gen.KernelIdeal.Frame
import Idealize.ShloMosaic.Lib.Pipeline.Value
import Idealize.ShloMosaic.Lib.ValueIdx
import proofs.«100572_j75677323756038_1_alg».proof.Proof.Payloads
import proofs.«100572_j75677323756038_1_alg».proof.Proof.Pieces
import proofs.«100572_j75677323756038_1_alg».proof.Proof.LibMomentNorm
set_option maxRecDepth 16384

noncomputable section

namespace Cert.KernelIdeal.Moments

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Pay Cert.KernelIdeal.Pieces Cert.GcnNorm

variable (V : (c : Dev nD) → (b : Ref sig .tc) → Buf (Elt Ideal) ((c : Thread nD τ).loc b)) (c : Dev nD)

/-- An array [50000, 128] plus a row [1, 128] at every row. -/
def biased (a : FVec Ideal S50000x128 .f32) (b : FVec Ideal S1x128 .f32) : FVec Ideal S50000x128 .f32 :=
  fun i => a i + b (ix2 (0 : Fin 1) (i 1))

/-- The column sums of an array [50000, 128], as a row [1, 128]. -/
def colSums (f : FVec Ideal S50000x128 .f32) : FVec Ideal S1x128 .f32 := fun i => ∑ r : Fin 50000, f (ix2 r (i 1))

theorem colSums_apply (f : FVec Ideal S50000x128 .f32) (u : Fin 1) (q : Fin 128) :
    colSums f (ix2 u q) = ∑ r : Fin 50000, f (ix2 r q) := rfl

/-- The sum of column q over the rows of block s. -/
def blockCol (f : FVec Ideal S50000x128 .f32) (s : ℕ) (q : Fin 128) : EReal :=
  ∑ p : Fin 2000, if h : s * 2000 + p.val < 50000 then f (ix2 ⟨s * 2000 + p.val, h⟩ q) else 0

/-- The 25 blocks of 2000 rows are all the rows. -/
theorem blocks_total (f : FVec Ideal S50000x128 .f32) (q : Fin 128) :
    ∑ s ∈ Finset.range (24 + 1), blockCol f s q = ∑ r : Fin 50000, f (ix2 r q) := by
  rw [Finset.sum_range, ← Cert.Lib.MomentNorm.sum_blocks 25 2000 (by norm_num : 50000 = 25 * 2000) (fun r => f (ix2 r q))]
  refine Finset.sum_congr rfl fun b _ => Finset.sum_congr rfl fun p _ => ?_
  have hb := b.isLt
  have hp := p.isLt
  rw [dif_pos (by omega)]

/-- The printed index maps over the grid: the two row-blocked windows move one block per point, the rows stay. -/
theorem idx_facts1 : ∀ t : Fin cfg1.N, (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0) :=
  (by decide +kernel : ∀ t : Fin grid1.N, _)

theorem lt_rows (t : Fin cfg1.N) (p : Fin 2000) : t.val * 2000 + p.val < 50000 := by
  have h1 : t.val < 25 := Nat.lt_of_lt_of_eq t.isLt N_1
  have h2 := p.isLt
  omega

/-- An index of the result array is in point `t`'s block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48_0).slice (win1_2.rect t)).set ↔ _
  rw [View.set_slice_whole, Rect.mem_set_unit]
  exact Iff.rfl

/-- Every row of the result array is in the block of the point its row number divided by 2000 names. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  have ht : (i 0).val / 2000 < cfg1.N := Nat.lt_of_lt_of_eq (by omega : (i 0).val / 2000 < 25) hN.symm
  have ef := idx_facts1 ⟨(i 0).val / 2000, ht⟩
  have e4 : win1_2.index ⟨(i 0).val / 2000, ht⟩ (0 : Fin 2) = (i 0).val / 2000 := ef.2.2.1.1
  have e5 : win1_2.index ⟨(i 0).val / 2000, ht⟩ (1 : Fin 2) = 0 := ef.2.2.1.2
  refine ⟨⟨(i 0).val / 2000, ht⟩, flush1_2 _, ?_⟩
  rw [mem_blk]
  intro a
  match a with
  | ⟨0, _⟩ => show win1_2.index ⟨(i 0).val / 2000, ht⟩ (0 : Fin 2) * 2000 ≤ (i 0).val ∧ (i 0).val < win1_2.index ⟨(i 0).val / 2000, ht⟩ (0 : Fin 2) * 2000 + 2000; omega
  | ⟨1, _⟩ => show win1_2.index ⟨(i 0).val / 2000, ht⟩ (1 : Fin 2) * 128 ≤ (i 1).val ∧ (i 1).val < win1_2.index ⟨(i 0).val / 2000, ht⟩ (1 : Fin 2) * 128 + 128; omega

/-- The body's first payload at point `t`: the block of rows of the biased array. -/
theorem bias_block (t : Fin cfg1.N) (p : Fin 2000) (q : Fin 128) :
    k1_pay3 (iblk1 V c 0 t) (iblk1 V c 1 t) (ix2 p q)
      = biased (V c main_v46) (V c main_v47) (ix2 ⟨t.val * 2000 + p.val, lt_rows t p⟩ q) := by
  obtain ⟨⟨e0, e1⟩, ⟨e2, e3⟩, -⟩ := idx_facts1 t
  have hp := lt_rows t p
  refine (pay_bias (iblk1 V c 0 t) (iblk1 V c 1 t) p q).trans ?_
  have h0 : iblk1 V c 0 t (ix2 p q) = V c main_v46 (ix2 ⟨t.val * 2000 + p.val, hp⟩ q) := by
    show V c main_v46 (((cfg1.win 0).blk t).view.emb (ix2 p q)) = _
    exact congrArg _ (funext (fun a => by
      apply Fin.ext
      match a with
      | ⟨0, _⟩ => show win1_0.index t (0 : Fin 2) * 2000 + 1 * p.val = t.val * 2000 + p.val; omega
      | ⟨1, _⟩ => show win1_0.index t (1 : Fin 2) * 128 + 1 * q.val = q.val; omega))
  have h1 : iblk1 V c 1 t (ix2 (0 : Fin 1) q) = V c main_v47 (ix2 (0 : Fin 1) q) := by
    show V c main_v47 (((cfg1.win 1).blk t).view.emb (ix2 (0 : Fin 1) q)) = _
    exact congrArg _ (funext fun a => by
      apply Fin.ext
      match a with
      | ⟨0, _⟩ => show win1_1.index t (0 : Fin 2) * 1 + 1 * 0 = 0; omega
      | ⟨1, _⟩ => show win1_1.index t (1 : Fin 2) * 128 + 1 * q.val = q.val; omega)
  rw [h0, h1]
  rfl

theorem block_sum (t : Fin cfg1.N) (q : Fin 128) :
    ∑ p : Fin 2000, k1_pay3 (iblk1 V c 0 t) (iblk1 V c 1 t) (ix2 p q) = blockCol (biased (V c main_v46) (V c main_v47)) t.val q := by
  unfold blockCol
  refine Finset.sum_congr rfl fun p _ => ?_
  rw [dif_pos (lt_rows t p)]
  exact bias_block V c t p q

theorem block_sumsq (t : Fin cfg1.N) (q : Fin 128) :
    ∑ p : Fin 2000, k1_pay3 (iblk1 V c 0 t) (iblk1 V c 1 t) (ix2 p q) * k1_pay3 (iblk1 V c 0 t) (iblk1 V c 1 t) (ix2 p q)
      = blockCol (fun i => biased (V c main_v46) (V c main_v47) i * biased (V c main_v46) (V c main_v47) i) t.val q := by
  unfold blockCol
  refine Finset.sum_congr rfl fun p _ => ?_
  rw [dif_pos (lt_rows t p), bias_block V c t p q]

/-- The three buffers after the first point: the sums started from the zero row. -/
theorem outs_A (t : Fin cfg1.N) (h0 : t.val % 25 = 0) :
    outsAt1 V c t.val t.isLt = (k1_pay3 (iblk1 V c 0 t) (iblk1 V c 1 t), k1_pay4 (iblk1 V c 0 t) (iblk1 V c 1 t) (k1_pay1 (F := Ideal)), k1_pay5 (iblk1 V c 0 t) (iblk1 V c 1 t) (k1_pay2 (F := Ideal))) := by
  refine (outsAt1_A V c t h0).trans ?_
  rw [out1_A_2_eq c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t),
    out1_A_3_eq c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t),
    out1_A_4_eq c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)]

/-- The three buffers after a later point: the sums continued from the point before. -/
theorem outs_B (t : Fin cfg1.N) (h0 : ¬t.val % 25 = 0) :
    outsAt1 V c t.val t.isLt = (k1_pay3 (iblk1 V c 0 t) (iblk1 V c 1 t),
      k1_pay4 (iblk1 V c 0 t) (iblk1 V c 1 t) (outsAt1 V c (t.val - 1) (Nat.lt_of_le_of_lt (Nat.sub_le _ _) t.isLt)).2.1,
      k1_pay5 (iblk1 V c 0 t) (iblk1 V c 1 t) (outsAt1 V c (t.val - 1) (Nat.lt_of_le_of_lt (Nat.sub_le _ _) t.isLt)).2.2) := by
  refine (outsAt1_B V c t h0).trans ?_
  rw [out1_B_2_eq c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) _ _,
    out1_B_3_eq c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) _ _,
    out1_B_4_eq c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) _ _]

/-- The first buffer after any point: the block plus the bias. -/
theorem out_biased (t : Fin cfg1.N) : (outsAt1 V c t.val t.isLt).1 = k1_pay3 (iblk1 V c 0 t) (iblk1 V c 1 t) := by
  by_cases h0 : t.val % 25 = 0
  · rw [outs_A V c t h0]
  · rw [outs_B V c t h0]

/-- THE ACCUMULATION: after point n the sum rows hold the column sums over the blocks 0 … n. -/
theorem sums_at (n : ℕ) (hn : n < cfg1.N) :
    (∀ (u : Fin 1) (q : Fin 128), (outsAt1 V c n hn).2.1 (ix2 u q) = ∑ s ∈ Finset.range (n + 1), blockCol (biased (V c main_v46) (V c main_v47)) s q)
    ∧ (∀ (u : Fin 1) (q : Fin 128), (outsAt1 V c n hn).2.2 (ix2 u q) = ∑ s ∈ Finset.range (n + 1), blockCol (fun i => biased (V c main_v46) (V c main_v47) i * biased (V c main_v46) (V c main_v47) i) s q) := by
  induction n with
  | zero =>
    have e := outs_A V c ⟨0, hn⟩ (Nat.zero_mod _)
    have e1 : (outsAt1 V c 0 hn).2.1 = k1_pay4 (iblk1 V c 0 ⟨0, hn⟩) (iblk1 V c 1 ⟨0, hn⟩) (k1_pay1 (F := Ideal)) := congrArg (fun x => x.2.1) e
    have e2 : (outsAt1 V c 0 hn).2.2 = k1_pay5 (iblk1 V c 0 ⟨0, hn⟩) (iblk1 V c 1 ⟨0, hn⟩) (k1_pay2 (F := Ideal)) := congrArg (fun x => x.2.2) e
    constructor
    · intro u q
      rw [e1, Finset.sum_range_one]
      refine (pay_sum (iblk1 V c 0 ⟨0, hn⟩) (iblk1 V c 1 ⟨0, hn⟩) (k1_pay1 (F := Ideal)) u q).trans ?_
      rw [pay_zero1, zero_add]
      exact block_sum V c ⟨0, hn⟩ q
    · intro u q
      rw [e2, Finset.sum_range_one]
      refine (pay_sumsq (iblk1 V c 0 ⟨0, hn⟩) (iblk1 V c 1 ⟨0, hn⟩) (k1_pay2 (F := Ideal)) u q).trans ?_
      rw [pay_zero2, zero_add]
      exact block_sumsq V c ⟨0, hn⟩ q
  | succ n ih =>
    have hn' : n < cfg1.N := Nat.lt_of_succ_lt hn
    have hlt : n + 1 < 25 := Nat.lt_of_lt_of_eq hn N_1
    have h0 : ¬(n + 1) % 25 = 0 := by omega
    obtain ⟨ih1, ih2⟩ := ih hn'
    have e := outs_B V c ⟨n + 1, hn⟩ h0
    have e1 : (outsAt1 V c (n + 1) hn).2.1 = k1_pay4 (iblk1 V c 0 ⟨n + 1, hn⟩) (iblk1 V c 1 ⟨n + 1, hn⟩) (outsAt1 V c n hn').2.1 := congrArg (fun x => x.2.1) e
    have e2 : (outsAt1 V c (n + 1) hn).2.2 = k1_pay5 (iblk1 V c 0 ⟨n + 1, hn⟩) (iblk1 V c 1 ⟨n + 1, hn⟩) (outsAt1 V c n hn').2.2 := congrArg (fun x => x.2.2) e
    constructor
    · intro u q
      rw [e1, Finset.sum_range_succ _ (n + 1)]
      refine (pay_sum (iblk1 V c 0 ⟨n + 1, hn⟩) (iblk1 V c 1 ⟨n + 1, hn⟩) (outsAt1 V c n hn').2.1 u q).trans ?_
      rw [ih1 u q]
      exact congrArg _ (block_sum V c ⟨n + 1, hn⟩ q)
    · intro u q
      rw [e2, Finset.sum_range_succ _ (n + 1)]
      refine (pay_sumsq (iblk1 V c 0 ⟨n + 1, hn⟩) (iblk1 V c 1 ⟨n + 1, hn⟩) (outsAt1 V c n hn').2.2 u q).trans ?_
      rw [ih2 u q]
      exact congrArg _ (block_sumsq V c ⟨n + 1, hn⟩ q)

/-- What point `t` writes back into the first result is block `t` of the biased array. -/
theorem flushed2_eq (t : Fin cfg1.N) :
    (dat1 V c).flushed 2 t = ((cfg1.win 2).blk t).view.read (Elt Ideal) (biased (V c main_v46) (V c main_v47)) := by
  show (cfg1.win 2).cut (grid1.coords t) ((dat1 V c).after 2 t) = _
  rw [after1_2, out_biased V c t]
  obtain ⟨-, -, ⟨e4, e5⟩, -⟩ := idx_facts1 t
  funext j
  obtain ⟨p, q, rfl⟩ : ∃ (p : Fin 2000) (q : Fin 128), j = ix2 p q := ⟨j 0, j 1, eq_ix2 j⟩
  have hp := lt_rows t p
  show k1_pay3 (iblk1 V c 0 t) (iblk1 V c 1 t) (ix2 p q) = biased (V c main_v46) (V c main_v47) (((cfg1.win 2).blk t).view.emb (ix2 p q))
  have hemb : ((cfg1.win 2).blk t).view.emb (ix2 p q) = ix2 ⟨t.val * 2000 + p.val, hp⟩ q :=
    funext (fun a => by
      apply Fin.ext
      match a with
      | ⟨0, _⟩ => show win1_2.index t (0 : Fin 2) * 2000 + 1 * p.val = t.val * 2000 + p.val; omega
      | ⟨1, _⟩ => show win1_2.index t (1 : Fin 2) * 128 + 1 * q.val = q.val; omega)
  rw [hemb]
  exact bias_block V c t p q

/-- The first result after the launch: the biased array. -/
theorem final2 : (dat1 V c).arrAt 2 cfg1.N = biased (V c main_v46) (V c main_v47) :=
  (dat1 V c).arrAt_eq_of_cover 2 _ (fun t _ => flushed2_eq V c t) cover

/-- The whole of sum row 3 is the last point's block. -/
theorem cover3 (i : S1x128.Idx) :
    ∃ t : Fin cfg1.N, (cfg1.win 3).flush t = true ∧ i ∈ ((cfg1.win 3).blk t).view.set := by
  have hi0 : (i 0).val < 1 := (i 0).isLt
  have hi1 : (i 1).val < 128 := (i 1).isLt
  have ht : 24 < cfg1.N := Nat.lt_of_lt_of_eq (by omega : 24 < 25) N_1.symm
  have ef := idx_facts1 ⟨24, ht⟩
  have ea : win1_3.index ⟨24, ht⟩ (0 : Fin 2) = 0 := ef.2.2.2.1.1
  have eb : win1_3.index ⟨24, ht⟩ (1 : Fin 2) = 0 := ef.2.2.2.1.2
  refine ⟨⟨24, ht⟩, (flush1_3 ⟨24, ht⟩).mpr rfl, ?_⟩
  show i ∈ ((View.whole main_v48_1).slice (win1_3.rect ⟨24, ht⟩)).set
  rw [View.set_slice_whole, Rect.mem_set_unit]
  intro a
  match a with
  | ⟨0, _⟩ => show win1_3.index ⟨24, ht⟩ (0 : Fin 2) * 1 ≤ (i 0).val ∧ (i 0).val < win1_3.index ⟨24, ht⟩ (0 : Fin 2) * 1 + 1; omega
  | ⟨1, _⟩ => show win1_3.index ⟨24, ht⟩ (1 : Fin 2) * 128 ≤ (i 1).val ∧ (i 1).val < win1_3.index ⟨24, ht⟩ (1 : Fin 2) * 128 + 128; omega

/-- The whole of sum row 4 is the last point's block. -/
theorem cover4 (i : S1x128.Idx) :
    ∃ t : Fin cfg1.N, (cfg1.win 4).flush t = true ∧ i ∈ ((cfg1.win 4).blk t).view.set := by
  have hi0 : (i 0).val < 1 := (i 0).isLt
  have hi1 : (i 1).val < 128 := (i 1).isLt
  have ht : 24 < cfg1.N := Nat.lt_of_lt_of_eq (by omega : 24 < 25) N_1.symm
  have ef := idx_facts1 ⟨24, ht⟩
  have ea : win1_4.index ⟨24, ht⟩ (0 : Fin 2) = 0 := ef.2.2.2.2.1
  have eb : win1_4.index ⟨24, ht⟩ (1 : Fin 2) = 0 := ef.2.2.2.2.2
  refine ⟨⟨24, ht⟩, (flush1_4 ⟨24, ht⟩).mpr rfl, ?_⟩
  show i ∈ ((View.whole main_v48_2).slice (win1_4.rect ⟨24, ht⟩)).set
  rw [View.set_slice_whole, Rect.mem_set_unit]
  intro a
  match a with
  | ⟨0, _⟩ => show win1_4.index ⟨24, ht⟩ (0 : Fin 2) * 1 ≤ (i 0).val ∧ (i 0).val < win1_4.index ⟨24, ht⟩ (0 : Fin 2) * 1 + 1; omega
  | ⟨1, _⟩ => show win1_4.index ⟨24, ht⟩ (1 : Fin 2) * 128 ≤ (i 1).val ∧ (i 1).val < win1_4.index ⟨24, ht⟩ (1 : Fin 2) * 128 + 128; omega

/-- A sum row's buffer, read through its one block, is a row G when it agrees with G column by column. -/
theorem read_row3 (t : Fin cfg1.N) (G : FVec Ideal S1x128 .f32) (acc : Vec Ideal S1x128 .f32)
    (h : ∀ (u : Fin 1) (q : Fin 128), acc (ix2 u q) = G (ix2 (0 : Fin 1) q)) :
    (cfg1.win 3).cut (grid1.coords t) acc = ((cfg1.win 3).blk t).view.read (Elt Ideal) G := by
  obtain ⟨-, -, -, ⟨e6, e7⟩, e8, e9⟩ := idx_facts1 t
  funext j
  obtain ⟨u, q, rfl⟩ : ∃ (u : Fin 1) (q : Fin 128), j = ix2 u q := ⟨j 0, j 1, eq_ix2 j⟩
  show acc (ix2 u q) = G (((cfg1.win 3).blk t).view.emb (ix2 u q))
  rw [h u q]
  have hu := u.isLt
  exact congrArg G (funext fun a => by
    apply Fin.ext
    match a with
    | ⟨0, _⟩ => show 0 = win1_3.index t (0 : Fin 2) * 1 + 1 * u.val; omega
    | ⟨1, _⟩ => show q.val = win1_3.index t (1 : Fin 2) * 128 + 1 * q.val; omega)

/-- What the last point writes back into sum row 3: the column sums over all 50000 rows. -/
theorem flushed3_eq (t : Fin cfg1.N) (hf : (cfg1.win 3).flush t = true) :
    (dat1 V c).flushed 3 t = ((cfg1.win 3).blk t).view.read (Elt Ideal) (colSums (biased (V c main_v46) (V c main_v47))) := by
  have h24 : t.val % 25 = 24 := (flush1_3 t).mp hf
  have hlt : t.val < 25 := Nat.lt_of_lt_of_eq t.isLt N_1
  have ht : t.val = 24 := by omega
  show (cfg1.win 3).cut (grid1.coords t) ((dat1 V c).after 3 t) = _
  rw [after1_3]
  have hS := (sums_at V c t.val t.isLt).1
  generalize (outsAt1 V c t.val t.isLt).2.1 = acc at hS ⊢
  rw [ht] at hS
  exact read_row3 t (colSums (biased (V c main_v46) (V c main_v47))) acc
    (fun u q => (hS u q).trans ((blocks_total (biased (V c main_v46) (V c main_v47)) q).trans (colSums_apply (biased (V c main_v46) (V c main_v47)) 0 q).symm))

/-- A sum row's buffer, read through its one block, is a row G when it agrees with G column by column. -/
theorem read_row4 (t : Fin cfg1.N) (G : FVec Ideal S1x128 .f32) (acc : Vec Ideal S1x128 .f32)
    (h : ∀ (u : Fin 1) (q : Fin 128), acc (ix2 u q) = G (ix2 (0 : Fin 1) q)) :
    (cfg1.win 4).cut (grid1.coords t) acc = ((cfg1.win 4).blk t).view.read (Elt Ideal) G := by
  obtain ⟨-, -, -, ⟨e6, e7⟩, e8, e9⟩ := idx_facts1 t
  funext j
  obtain ⟨u, q, rfl⟩ : ∃ (u : Fin 1) (q : Fin 128), j = ix2 u q := ⟨j 0, j 1, eq_ix2 j⟩
  show acc (ix2 u q) = G (((cfg1.win 4).blk t).view.emb (ix2 u q))
  rw [h u q]
  have hu := u.isLt
  exact congrArg G (funext fun a => by
    apply Fin.ext
    match a with
    | ⟨0, _⟩ => show 0 = win1_4.index t (0 : Fin 2) * 1 + 1 * u.val; omega
    | ⟨1, _⟩ => show q.val = win1_4.index t (1 : Fin 2) * 128 + 1 * q.val; omega)

/-- What the last point writes back into sum row 4: the column sums over all 50000 rows. -/
theorem flushed4_eq (t : Fin cfg1.N) (hf : (cfg1.win 4).flush t = true) :
    (dat1 V c).flushed 4 t = ((cfg1.win 4).blk t).view.read (Elt Ideal) (colSums (fun i => biased (V c main_v46) (V c main_v47) i * biased (V c main_v46) (V c main_v47) i)) := by
  have h24 : t.val % 25 = 24 := (flush1_4 t).mp hf
  have hlt : t.val < 25 := Nat.lt_of_lt_of_eq t.isLt N_1
  have ht : t.val = 24 := by omega
  show (cfg1.win 4).cut (grid1.coords t) ((dat1 V c).after 4 t) = _
  rw [after1_4]
  have hS := (sums_at V c t.val t.isLt).2
  generalize (outsAt1 V c t.val t.isLt).2.2 = acc at hS ⊢
  rw [ht] at hS
  exact read_row4 t (colSums (fun i => biased (V c main_v46) (V c main_v47) i * biased (V c main_v46) (V c main_v47) i)) acc
    (fun u q => (hS u q).trans ((blocks_total (fun i => biased (V c main_v46) (V c main_v47) i * biased (V c main_v46) (V c main_v47) i) q).trans (colSums_apply (fun i => biased (V c main_v46) (V c main_v47) i * biased (V c main_v46) (V c main_v47) i) 0 q).symm))

/-- The second result after the launch: the column sums of the biased array. -/
theorem final3 : (dat1 V c).arrAt 3 cfg1.N = colSums (biased (V c main_v46) (V c main_v47)) :=
  (dat1 V c).arrAt_eq_of_cover 3 _ (fun t hf => flushed3_eq V c t hf) cover3

/-- The third result after the launch: the column sums of the squares of the biased array. -/
theorem final4 : (dat1 V c).arrAt 4 cfg1.N = colSums (fun i => biased (V c main_v46) (V c main_v47) i * biased (V c main_v46) (V c main_v47) i) :=
  (dat1 V c).arrAt_eq_of_cover 4 _ (fun t hf => flushed4_eq V c t hf) cover4

end Cert.KernelIdeal.Moments
end
-- ==== Proof.NormValue.lean ====
/-
  What the third launch leaves in its result array: the normalised rows, cut at zero, added to the input rows.

  Point t of the 25 is handed rows 2000·t … of the biased array and of the input array, and the whole mean, variance,
  gain and offset rows; it writes back, entry by entry, the input entry plus the cut, shifted, scaled, normalised
  biased entry. Each write-back is the matching block of rows of one whole array, and the blocks cover the result.
-/
import proofs.«100572_j75677323756038_1_alg».proof.Proof.Gen.KernelIdeal.Frame
import Idealize.ShloMosaic.Lib.Pipeline.Value
import Idealize.ShloMosaic.Lib.ValueIdx
import proofs.«100572_j75677323756038_1_alg».proof.Proof.Payloads
set_option maxRecDepth 16384

noncomputable section

namespace Cert.KernelIdeal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Pay Cert.GcnNorm

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The whole result: entry (r, q) from the input entry, the biased entry and column q of the four rows. -/
def normed (x h : FVec Ideal S50000x128 .f32) (mean var g b : FVec Ideal S1x128 .f32) : FVec Ideal S50000x128 .f32 :=
  fun i => outAt (x i) (h i) (mean (ix2 (0 : Fin 1) (i 1))) (var (ix2 (0 : Fin 1) (i 1))) (g (ix2 (0 : Fin 1) (i 1))) (b (ix2 (0 : Fin 1) (i 1)))

/-- The printed index maps over the grid: the three row-blocked windows move one block per point, the four rows stay. -/
theorem idx_facts2 : ∀ t : Fin cfg2.N, (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

theorem lt_rows (t : Fin cfg2.N) (p : Fin 2000) : t.val * 2000 + p.val < 50000 := by
  have h1 : t.val < 25 := Nat.lt_of_lt_of_eq t.isLt N_2
  have h2 := p.isLt
  omega

/-- An index of the result array is in point `t`'s block iff each coordinate is in the block's range on its axis. -/
theorem mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v57).slice (win2_6.rect t)).set ↔ _
  rw [View.set_slice_whole, Rect.mem_set_unit]
  exact Iff.rfl

/-- Every row of the result array is in the block of the point its row number divided by 2000 names. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  have ht : (i 0).val / 2000 < cfg2.N := Nat.lt_of_lt_of_eq (by omega : (i 0).val / 2000 < 25) hN.symm
  have ef := idx_facts2 ⟨(i 0).val / 2000, ht⟩
  have e4 : win2_6.index ⟨(i 0).val / 2000, ht⟩ (0 : Fin 2) = (i 0).val / 2000 := ef.2.2.2.2.2.2.1
  have e5 : win2_6.index ⟨(i 0).val / 2000, ht⟩ (1 : Fin 2) = 0 := ef.2.2.2.2.2.2.2
  refine ⟨⟨(i 0).val / 2000, ht⟩, flush2_6 _, ?_⟩
  rw [mem_blk]
  intro a
  match a with
  | ⟨0, _⟩ => show win2_6.index ⟨(i 0).val / 2000, ht⟩ (0 : Fin 2) * 2000 ≤ (i 0).val ∧ (i 0).val < win2_6.index ⟨(i 0).val / 2000, ht⟩ (0 : Fin 2) * 2000 + 2000; omega
  | ⟨1, _⟩ => show win2_6.index ⟨(i 0).val / 2000, ht⟩ (1 : Fin 2) * 128 ≤ (i 1).val ∧ (i 1).val < win2_6.index ⟨(i 0).val / 2000, ht⟩ (1 : Fin 2) * 128 + 128; omega

/-- What point `t` writes back is block `t` of the whole result. -/
theorem flushed6_eq (t : Fin cfg2.N) :
    (dat2 V c).flushed 6 t = ((cfg2.win 6).blk t).view.read (Elt Ideal)
      (normed (V c main_arg0) (V c main_v48_0) (V c main_v50) (V c main_v54) (V c main_v55) (V c main_v56)) := by
  show (cfg2.win 6).cut (grid2.coords t) ((dat2 V c).after 6 t) = _
  rw [after2_6]
  unfold out2_6
  rw [View.canon_unit_zero hz]
  simp only [View.ld_unit_zero (S := S2000x128) hz, View.ld_unit_zero (S := S1x128) hz]
  obtain ⟨⟨e0, e1⟩, ⟨e2, e3⟩, ⟨e4, e5⟩, ⟨e6, e7⟩, ⟨e8, e9⟩, ⟨e10, e11⟩, e12, e13⟩ := idx_facts2 t
  funext j
  obtain ⟨p, q, rfl⟩ : ∃ (p : Fin 2000) (q : Fin 128), j = ix2 p q := ⟨j 0, j 1, eq_ix2 j⟩
  have hp := lt_rows t p
  show k2_pay1 (iblk2 V c 0 t) (iblk2 V c 2 t) (iblk2 V c 3 t) (iblk2 V c 4 t) (iblk2 V c 5 t) (iblk2 V c 1 t) (ix2 p q)
    = normed (V c main_arg0) (V c main_v48_0) (V c main_v50) (V c main_v54) (V c main_v55) (V c main_v56) (((cfg2.win 6).blk t).view.emb (ix2 p q))
  have hemb : ((cfg2.win 6).blk t).view.emb (ix2 p q) = ix2 ⟨t.val * 2000 + p.val, hp⟩ q :=
    funext (fun a => by
      apply Fin.ext
      match a with
      | ⟨0, _⟩ => show win2_6.index t (0 : Fin 2) * 2000 + 1 * p.val = t.val * 2000 + p.val; omega
      | ⟨1, _⟩ => show win2_6.index t (1 : Fin 2) * 128 + 1 * q.val = q.val; omega)
  rw [hemb]
  refine (pay_norm (iblk2 V c 0 t) (iblk2 V c 2 t) (iblk2 V c 3 t) (iblk2 V c 4 t) (iblk2 V c 5 t) (iblk2 V c 1 t) p q).trans ?_
  have h0 : iblk2 V c 0 t (ix2 p q) = V c main_v48_0 (ix2 ⟨t.val * 2000 + p.val, hp⟩ q) := by
    show V c main_v48_0 (((cfg2.win 0).blk t).view.emb (ix2 p q)) = _
    exact congrArg _ (funext (fun a => by
      apply Fin.ext
      match a with
      | ⟨0, _⟩ => show win2_0.index t (0 : Fin 2) * 2000 + 1 * p.val = t.val * 2000 + p.val; omega
      | ⟨1, _⟩ => show win2_0.index t (1 : Fin 2) * 128 + 1 * q.val = q.val; omega))
  have h1 : iblk2 V c 1 t (ix2 p q) = V c main_arg0 (ix2 ⟨t.val * 2000 + p.val, hp⟩ q) := by
    show V c main_arg0 (((cfg2.win 1).blk t).view.emb (ix2 p q)) = _
    exact congrArg _ (funext (fun a => by
      apply Fin.ext
      match a with
      | ⟨0, _⟩ => show win2_1.index t (0 : Fin 2) * 2000 + 1 * p.val = t.val * 2000 + p.val; omega
      | ⟨1, _⟩ => show win2_1.index t (1 : Fin 2) * 128 + 1 * q.val = q.val; omega))
  have h2 : iblk2 V c 2 t (ix2 (0 : Fin 1) q) = V c main_v50 (ix2 (0 : Fin 1) q) := by
    show V c main_v50 (((cfg2.win 2).blk t).view.emb (ix2 (0 : Fin 1) q)) = _
    exact congrArg _ (funext fun a => by
      apply Fin.ext
      match a with
      | ⟨0, _⟩ => show win2_2.index t (0 : Fin 2) * 1 + 1 * 0 = 0; omega
      | ⟨1, _⟩ => show win2_2.index t (1 : Fin 2) * 128 + 1 * q.val = q.val; omega)
  have h3 : iblk2 V c 3 t (ix2 (0 : Fin 1) q) = V c main_v54 (ix2 (0 : Fin 1) q) := by
    show V c main_v54 (((cfg2.win 3).blk t).view.emb (ix2 (0 : Fin 1) q)) = _
    exact congrArg _ (funext fun a => by
      apply Fin.ext
      match a with
      | ⟨0, _⟩ => show win2_3.index t (0 : Fin 2) * 1 + 1 * 0 = 0; omega
      | ⟨1, _⟩ => show win2_3.index t (1 : Fin 2) * 128 + 1 * q.val = q.val; omega)
  have h4 : iblk2 V c 4 t (ix2 (0 : Fin 1) q) = V c main_v55 (ix2 (0 : Fin 1) q) := by
    show V c main_v55 (((cfg2.win 4).blk t).view.emb (ix2 (0 : Fin 1) q)) = _
    exact congrArg _ (funext fun a => by
      apply Fin.ext
      match a with
      | ⟨0, _⟩ => show win2_4.index t (0 : Fin 2) * 1 + 1 * 0 = 0; omega
      | ⟨1, _⟩ => show win2_4.index t (1 : Fin 2) * 128 + 1 * q.val = q.val; omega)
  have h5 : iblk2 V c 5 t (ix2 (0 : Fin 1) q) = V c main_v56 (ix2 (0 : Fin 1) q) := by
    show V c main_v56 (((cfg2.win 5).blk t).view.emb (ix2 (0 : Fin 1) q)) = _
    exact congrArg _ (funext fun a => by
      apply Fin.ext
      match a with
      | ⟨0, _⟩ => show win2_5.index t (0 : Fin 2) * 1 + 1 * 0 = 0; omega
      | ⟨1, _⟩ => show win2_5.index t (1 : Fin 2) * 128 + 1 * q.val = q.val; omega)
  rw [h0, h1, h2, h3, h4, h5]
  rfl

/-- The result array after the launch. -/
theorem final : (dat2 V c).arrAt 6 cfg2.N
    = normed (V c main_arg0) (V c main_v48_0) (V c main_v50) (V c main_v54) (V c main_v55) (V c main_v56) :=
  (dat2 V c).arrAt_eq_of_cover 6 _ (fun t _ => flushed6_eq V c t) cover

end Cert.KernelIdeal.Norm
end
-- ==== Proof.Fold.lean ====
/-
  The contents of the buffers at each boundary of the program's run, read back to the argument arrays.

  Before the first launch the host forms the edge list with self loops, the edge weights and the transposed weight
  matrix; the launch writes the product of the rows with it. Between the first two launches the host aggregates that
  product over the edges and reshapes the bias to a row; the second launch writes the biased rows and their two rows of
  column sums. Between the last two launches the host divides the sums by the row count, forms the variance from the
  two moments, and reshapes the gain and the offset; the third launch writes the result. Each boundary's contents are
  the previous boundary's with the stretch's results, or the launch's result arrays, replaced: reading a buffer back
  through the boundaries ends at the argument arrays.
-/
import proofs.«100572_j75677323756038_1_alg».proof.Proof.Gen.KernelIdeal.Frame
import Idealize.ShloMosaic.Lib.StableHlo.Run
import proofs.«100572_j75677323756038_1_alg».proof.Proof.KStages
import proofs.«100572_j75677323756038_1_alg».proof.Proof.XwValue
import proofs.«100572_j75677323756038_1_alg».proof.Proof.MomentsValue
import proofs.«100572_j75677323756038_1_alg».proof.Proof.NormValue
set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Hand Idealize.ShloMosaic.StableHlo Idealize.ShloMosaic.ValueIdx
open Cert.KernelIdeal.Xw Cert.KernelIdeal.Moments Cert.KernelIdeal.Norm

section AnyFloats
variable {F : FTy → Type} [FloatOps F] (m : (ℓ : Loc nD τ sig) → Buf (Elt F) ℓ) (ρ : Dev nD → PrngReg) (c : Dev nD)

set_option maxRecDepth 8192 in
set_option maxHeartbeats 4000000 in
/-- The edge weights before the first launch, for any float values. -/
theorem W3_v31_any : W3 m ρ c (Proc.devRef .tc main_v31) = edgeW (F := F) (m ((c : Thread nD τ).loc main_arg1)) := by
  dsimp only [W3, W2, W1, W0, hostOps0_2, hostOps0_1, hostOps0]
  after_results_simp <;> rfl

end AnyFloats

variable (m : (ℓ : Loc nD τ sig) → Buf (Elt Ideal) ℓ) (ρ : Dev nD → PrngReg) (c : Dev nD)

/-! ## Before the first launch -/

set_option maxRecDepth 65536 in
set_option maxHeartbeats 4000000 in
theorem W3_arg0 : W3 m ρ c (Proc.devRef .tc main_arg0) = m ((c : Thread nD τ).loc main_arg0) := by
  dsimp only [W3, W2, W1, W0, hostOps0_2, hostOps0_1, hostOps0]
  after_results_simp <;> rfl

set_option maxRecDepth 65536 in
set_option maxHeartbeats 4000000 in
theorem W3_arg3 : W3 m ρ c (Proc.devRef .tc main_arg3) = m ((c : Thread nD τ).loc main_arg3) := by
  dsimp only [W3, W2, W1, W0, hostOps0_2, hostOps0_1, hostOps0]
  after_results_simp <;> rfl

set_option maxRecDepth 65536 in
set_option maxHeartbeats 4000000 in
theorem W3_arg4 : W3 m ρ c (Proc.devRef .tc main_arg4) = m ((c : Thread nD τ).loc main_arg4) := by
  dsimp only [W3, W2, W1, W0, hostOps0_2, hostOps0_1, hostOps0]
  after_results_simp <;> rfl

set_option maxRecDepth 65536 in
set_option maxHeartbeats 4000000 in
theorem W3_arg5 : W3 m ρ c (Proc.devRef .tc main_arg5) = m ((c : Thread nD τ).loc main_arg5) := by
  dsimp only [W3, W2, W1, W0, hostOps0_2, hostOps0_1, hostOps0]
  after_results_simp <;> rfl

set_option maxRecDepth 65536 in
set_option maxHeartbeats 4000000 in
theorem W3_v32 : W3 m ρ c (Proc.devRef .tc main_v32)
    = transpose S128x128 [1, 0] (m ((c : Thread nD τ).loc main_arg2)) transposes_S128x128_S128x128_1_0 := by
  dsimp only [W3, W2, W1, W0, hostOps0_2, hostOps0_1, hostOps0]
  after_results_simp <;> rfl

set_option maxRecDepth 65536 in
set_option maxHeartbeats 4000000 in
theorem W3_v3 : W3 m ρ c (Proc.devRef .tc main_v3) = src (F := Ideal) (m ((c : Thread nD τ).loc main_arg1)) := by
  dsimp only [W3, W2, W1, W0, hostOps0_2, hostOps0_1, hostOps0]
  after_results_simp <;> rfl

set_option maxRecDepth 65536 in
set_option maxHeartbeats 4000000 in
theorem W3_v6 : W3 m ρ c (Proc.devRef .tc main_v6) = dst (F := Ideal) (m ((c : Thread nD τ).loc main_arg1)) := by
  dsimp only [W3, W2, W1, W0, hostOps0_2, hostOps0_1, hostOps0]
  after_results_simp <;> rfl

theorem W3_v31 : W3 m ρ c (Proc.devRef .tc main_v31) = edgeW (F := Ideal) (m ((c : Thread nD τ).loc main_arg1)) :=
  W3_v31_any m ρ c

/-! ## After the first launch -/

/-- The first launch's result: the rows times the transposed weight matrix. -/
theorem W4_v33 : W4 m ρ c (Proc.devRef .tc main_v33)
    = prod (m ((c : Thread nD τ).loc main_arg0)) (transpose S128x128 [1, 0] (m ((c : Thread nD τ).loc main_arg2)) transposes_S128x128_S128x128_1_0) := by
  refine (W4_arr m ρ c 2).trans ((Xw.final (V3 m ρ) c).trans ?_)
  show prod (W3 m ρ c (Proc.devRef .tc main_arg0)) (W3 m ρ c (Proc.devRef .tc main_v32)) = _
  rw [W3_arg0, W3_v32]

theorem W4_arg0 : W4 m ρ c (Proc.devRef .tc main_arg0) = m ((c : Thread nD τ).loc main_arg0) :=
  (W4_arr m ρ c 0).trans ((((dat0 (V3 m ρ) c).arrAt_in 0 rfl _).trans (A_eq0 (V3 m ρ) c 0)).trans (W3_arg0 m ρ c))

/-! ## Before the second launch -/

set_option maxRecDepth 65536 in
set_option maxHeartbeats 4000000 in
theorem W5_v46 : W5 m ρ c (Proc.devRef .tc main_v46)
    = agg (F := Ideal) (prod (m ((c : Thread nD τ).loc main_arg0)) (transpose S128x128 [1, 0] (m ((c : Thread nD τ).loc main_arg2)) transposes_S128x128_S128x128_1_0)) (m ((c : Thread nD τ).loc main_arg1)) := by
  dsimp only [W5, hostOps1]
  after_results_simp
  rw [(W4_of_ne m ρ c main_v3 (by decide)), (W4_of_ne m ρ c main_v6 (by decide)), (W4_of_ne m ρ c main_v31 (by decide)), W3_v3, W3_v6, W3_v31, W4_v33]
  rfl

set_option maxRecDepth 65536 in
set_option maxHeartbeats 4000000 in
theorem W5_v47 : W5 m ρ c (Proc.devRef .tc main_v47)
    = shapeCast S1x128 (m ((c : Thread nD τ).loc main_arg3)) shapeCasts_S128_S1x128 := by
  dsimp only [W5, hostOps1]
  after_results_simp
  rw [(W4_of_ne m ρ c main_arg3 (by decide)), W3_arg3]
  rfl

set_option maxRecDepth 65536 in
set_option maxHeartbeats 4000000 in
theorem W5_arg0 : W5 m ρ c (Proc.devRef .tc main_arg0) = m ((c : Thread nD τ).loc main_arg0) := by
  dsimp only [W5, hostOps1]
  after_results_simp
  exact W4_arg0 m ρ c

set_option maxRecDepth 65536 in
set_option maxHeartbeats 4000000 in
theorem W5_arg4 : W5 m ρ c (Proc.devRef .tc main_arg4) = m ((c : Thread nD τ).loc main_arg4) := by
  dsimp only [W5, hostOps1]
  after_results_simp
  rw [(W4_of_ne m ρ c main_arg4 (by decide)), W3_arg4]

set_option maxRecDepth 65536 in
set_option maxHeartbeats 4000000 in
theorem W5_arg5 : W5 m ρ c (Proc.devRef .tc main_arg5) = m ((c : Thread nD τ).loc main_arg5) := by
  dsimp only [W5, hostOps1]
  after_results_simp
  rw [(W4_of_ne m ρ c main_arg5 (by decide)), W3_arg5]

/-! ## After the second launch -/

/-- The aggregated rows plus the bias, from the rows, the edge list, the weight matrix and the bias. -/
def hKof (x0 : FVec Ideal S50000x128 .f32) (x1 : (⟨S2x800000, .i32⟩ : BufTy).Contents (Elt Ideal)) (x2 : FVec Ideal S128x128 .f32)
    (x3 : FVec Ideal S128 .f32) : FVec Ideal S50000x128 .f32 :=
  biased (agg (F := Ideal) (prod x0 (transpose S128x128 [1, 0] x2 transposes_S128x128_S128x128_1_0)) x1)
    (shapeCast S1x128 x3 shapeCasts_S128_S1x128)

/-- The whole result, from the six argument arrays. -/
def outK (x0 : FVec Ideal S50000x128 .f32) (x1 : (⟨S2x800000, .i32⟩ : BufTy).Contents (Elt Ideal)) (x2 : FVec Ideal S128x128 .f32)
    (x3 x4 x5 : FVec Ideal S128 .f32) : FVec Ideal S50000x128 .f32 :=
  normed x0 (hKof x0 x1 x2 x3) (perRow (F := Ideal) (colSums (hKof x0 x1 x2 x3)))
    (varRow (F := Ideal) (colSums (hKof x0 x1 x2 x3)) (colSums (fun i => hKof x0 x1 x2 x3 i * hKof x0 x1 x2 x3 i)))
    (shapeCast S1x128 x4 shapeCasts_S128_S1x128) (shapeCast S1x128 x5 shapeCasts_S128_S1x128)

/-- The same at the program's argument arrays. -/
abbrev hK : FVec Ideal S50000x128 .f32 :=
  hKof (m ((c : Thread nD τ).loc main_arg0)) (m ((c : Thread nD τ).loc main_arg1)) (m ((c : Thread nD τ).loc main_arg2)) (m ((c : Thread nD τ).loc main_arg3))

theorem V5_biased : biased (V5 m ρ c main_v46) (V5 m ρ c main_v47) = hK m c := by
  show biased (W5 m ρ c (Proc.devRef .tc main_v46)) (W5 m ρ c (Proc.devRef .tc main_v47)) = _
  rw [W5_v46, W5_v47]
  rfl

theorem W6_v48_0 : W6 m ρ c (Proc.devRef .tc main_v48_0) = hK m c :=
  (W6_arr m ρ c 2).trans ((Moments.final2 (V5 m ρ) c).trans (V5_biased m ρ c))

theorem W6_v48_1 : W6 m ρ c (Proc.devRef .tc main_v48_1) = colSums (hK m c) :=
  (W6_arr m ρ c 3).trans ((Moments.final3 (V5 m ρ) c).trans (by rw [V5_biased]))

theorem W6_v48_2 : W6 m ρ c (Proc.devRef .tc main_v48_2) = colSums (fun i => hK m c i * hK m c i) :=
  (W6_arr m ρ c 4).trans ((Moments.final4 (V5 m ρ) c).trans (by rw [V5_biased]))

/-! ## Before the third launch -/

set_option maxRecDepth 65536 in
theorem W7_v48_0 : W7 m ρ c (Proc.devRef .tc main_v48_0) = hK m c := by
  dsimp only [W7, hostOps2]
  after_results_simp
  exact W6_v48_0 m ρ c

set_option maxRecDepth 65536 in
theorem W7_arg0 : W7 m ρ c (Proc.devRef .tc main_arg0) = m ((c : Thread nD τ).loc main_arg0) := by
  dsimp only [W7, hostOps2]
  after_results_simp
  rw [W6_of_ne m ρ c main_arg0 (by decide)]
  exact W5_arg0 m ρ c

set_option maxRecDepth 65536 in
theorem W7_v50 : W7 m ρ c (Proc.devRef .tc main_v50) = perRow (F := Ideal) (colSums (hK m c)) := by
  dsimp only [W7, hostOps2]
  after_results_simp
  rw [W6_v48_1]
  rfl

set_option maxRecDepth 65536 in
theorem W7_v54 : W7 m ρ c (Proc.devRef .tc main_v54)
    = varRow (F := Ideal) (colSums (hK m c)) (colSums (fun i => hK m c i * hK m c i)) := by
  dsimp only [W7, hostOps2]
  after_results_simp
  rw [W6_v48_1, W6_v48_2]
  rfl

set_option maxRecDepth 65536 in
theorem W7_v55 : W7 m ρ c (Proc.devRef .tc main_v55)
    = shapeCast S1x128 (m ((c : Thread nD τ).loc main_arg4)) shapeCasts_S128_S1x128 := by
  dsimp only [W7, hostOps2]
  after_results_simp
  rw [W6_of_ne m ρ c main_arg4 (by decide), W5_arg4]
  rfl

set_option maxRecDepth 65536 in
theorem W7_v56 : W7 m ρ c (Proc.devRef .tc main_v56)
    = shapeCast S1x128 (m ((c : Thread nD τ).loc main_arg5)) shapeCasts_S128_S1x128 := by
  dsimp only [W7, hostOps2]
  after_results_simp
  rw [W6_of_ne m ρ c main_arg5 (by decide), W5_arg5]
  rfl

/-! ## After the third launch -/

/-- THE RESULT ARRAY after the run, from the argument arrays. -/
theorem result : W8 m ρ c (Proc.devRef .tc main_v57)
    = outK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W8_arr m ρ c 6).trans ((Norm.final (V7 m ρ) c).trans ?_)
  show normed (W7 m ρ c (Proc.devRef .tc main_arg0)) (W7 m ρ c (Proc.devRef .tc main_v48_0)) (W7 m ρ c (Proc.devRef .tc main_v50))
    (W7 m ρ c (Proc.devRef .tc main_v54)) (W7 m ρ c (Proc.devRef .tc main_v55)) (W7 m ρ c (Proc.devRef .tc main_v56)) = _
  rw [W7_arg0, W7_v48_0, W7_v50, W7_v54, W7_v55, W7_v56]
  rfl

end Cert.KernelIdeal.Fold
end
-- ==== Proof.LibColReduce.lean ====
/-
  Sums down the columns of a two-axis array, and a row vector broadcast to every row, read at an index.

  For an array x : [R, C] reduced along its first axis, over the extended reals, the host's sum from zero at column q
  is the plain sum over the rows, Σ_k x (k, q). A vector r : [C] broadcast first to [1, C] and then to [R, C] reads
  r q at every (i, q); a scalar broadcast to any shape reads its one value everywhere.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.Lib.ColReduce

open Idealize.ShloMosaic Idealize.ShloMosaic.ValueIdx

variable {R C : Nat}

/-- The reduced index q with row k put back is (k, q). -/
theorem lift_col (h : (⟨2, ![R, C]⟩ : Shape).Reduces [0] (⟨1, ![C]⟩ : Shape)) (q : Fin C)
    (k : Fin ((⟨2, ![R, C]⟩ : Shape).size 0)) : h.lift (ix1 q) k = ix2 (⟨k.val, k.isLt⟩ : Fin R) q := by
  funext c; apply Fin.ext
  fin_cases c <;> rfl

/-- The host's sum along axis 0 from zero, at column q. -/
theorem hostReduceAdd_col (x : FVec Ideal ⟨2, ![R, C]⟩ .f32) (init : (⟨0, ![]⟩ : Shape).Idx → Ideal .f32)
    (hinit : ∀ i, init i = 0)
    (h' : (⟨2, ![R, C]⟩ : Shape).ReducesTo [0] (⟨1, ![C]⟩ : Shape)) (h : (⟨2, ![R, C]⟩ : Shape).Reduces [0] (⟨1, ![C]⟩ : Shape))
    (hu : 0 < (⟨0, ![]⟩ : Shape).numel) (q : Fin C) :
    Host.reduceAdd (F := Ideal) x init h' hu (ix1 q) = ∑ k : Fin R, x (ix2 k q) := by
  show Ideal.hostReduceAdd h' x (init (Shape.Idx.first hu)) (ix1 q) = _
  rw [Ideal.hostReduceAdd_single h' h, hinit, zero_add]
  refine Finset.sum_congr rfl fun k _ => ?_
  exact congrArg x (lift_col h q k)

/-- A scalar broadcast to any shape reads its one value. -/
theorem bcast_scalar_apply {α : Type} {s : Shape} (hb : (⟨0, ![]⟩ : Shape).BroadcastsInDim s (![] : Fin 0 → Fin s.rank))
    (x : (⟨0, ![]⟩ : Shape).Idx → α) (j : s.Idx) : broadcastInDim s ![] hb x j = x ix0 := by
  unfold broadcastInDim
  exact congrArg x (funext fun a => a.elim0)

/-- A vector broadcast to one row reads its entry. -/
theorem bcast_row1_apply {α : Type} (r : (⟨1, ![C]⟩ : Shape).Idx → α)
    (hb : (⟨1, ![C]⟩ : Shape).BroadcastsInDim (⟨2, ![1, C]⟩ : Shape) (![1] : Fin 1 → Fin 2)) (z : Fin 1) (q : Fin C) :
    broadcastInDim (⟨2, ![1, C]⟩ : Shape) ![1] hb r (ix2 z q) = r (ix1 q) := by
  refine broadcastInDim_apply _ hb r _ (ix1 q) fun a => ?_
  fin_cases a
  show q.val = if C = 1 then 0 else q.val
  split_ifs with hC
  · have := q.isLt; omega
  · rfl

/-- One row broadcast to R rows reads the row's entry. -/
theorem bcast_rows_apply {α : Type} (X : (⟨2, ![1, C]⟩ : Shape).Idx → α)
    (hb : (⟨2, ![1, C]⟩ : Shape).BroadcastsInDim (⟨2, ![R, C]⟩ : Shape) (![0, 1] : Fin 2 → Fin 2)) (i : Fin R) (q : Fin C) :
    broadcastInDim (⟨2, ![R, C]⟩ : Shape) ![0, 1] hb X (ix2 i q) = X (ix2 (0 : Fin 1) q) := by
  refine broadcastInDim_apply _ hb X _ (ix2 (0 : Fin 1) q) fun a => ?_
  fin_cases a
  · rfl
  · show q.val = if C = 1 then 0 else q.val
    split_ifs with hC
    · have := q.isLt; omega
    · rfl

/-- A vector as every row of an [R, C] array reads its entry at the column. -/
theorem rowBcast_apply {α : Type} (r : (⟨1, ![C]⟩ : Shape).Idx → α)
    (hb1 : (⟨1, ![C]⟩ : Shape).BroadcastsInDim (⟨2, ![1, C]⟩ : Shape) (![1] : Fin 1 → Fin 2))
    (hb2 : (⟨2, ![1, C]⟩ : Shape).BroadcastsInDim (⟨2, ![R, C]⟩ : Shape) (![0, 1] : Fin 2 → Fin 2)) (i : Fin R) (q : Fin C) :
    broadcastInDim (⟨2, ![R, C]⟩ : Shape) ![0, 1] hb2 (broadcastInDim (⟨2, ![1, C]⟩ : Shape) ![1] hb1 r) (ix2 i q)
      = r (ix1 q) := by
  rw [bcast_rows_apply _ hb2 i q, bcast_row1_apply r hb1 0 q]

end Cert.Lib.ColReduce

end
-- ==== Proof.RefTail.lean ====
/-
  The reference's normalisation read at an entry.

  The host's sum of a [50000, 128] array along its first axis from zero reads, at column c, the plain sum over the rows;
  a vector broadcast to every row reads its entry at the column. So the column mean, the centred array and the mean of
  its squares read as the formulas of the specification, and an entry of the reference's result is the specification's
  entry with the variance taken from the centred entries.
-/
import proofs.«100572_j75677323756038_1_alg».proof.Proof.RefRun
import proofs.«100572_j75677323756038_1_alg».proof.Proof.NormSpec
import proofs.«100572_j75677323756038_1_alg».proof.Proof.LibColReduce

noncomputable section

namespace Cert.ReferenceIdeal.Hand

open Cert.ReferenceIdeal Cert.ReferenceIdeal.Gen Idealize.ShloMosaic Idealize.ShloMosaic.ValueIdx
open Cert.GcnNorm Cert.GcnNorm.Consts Cert.Lib.ColReduce

theorem rows_apply (v : FVec Ideal S128 .f32) (r : Fin 50000) (c : Fin 128) : rows (F := Ideal) v (ix2 r c) = v (ix1 c) := by
  unfold rows
  exact rowBcast_apply v _ _ r c

theorem colSum_apply (H : FVec Ideal S50000x128 .f32) (c : Fin 128) :
    colSum (F := Ideal) H (ix1 c) = ∑ k : Fin 50000, H (ix2 k c) := by
  unfold colSum
  exact hostReduceAdd_col H _ (fun _ => ofBits_zero) _ (by decide) _ c

theorem meanV_apply (H : FVec Ideal S50000x128 .f32) (c : Fin 128) : meanV (F := Ideal) H (ix1 c) = mu H c := by
  unfold meanV mu rowsC
  show Ideal.div (colSum (F := Ideal) H (ix1 c)) (broadcastInDim S128 ![] bcast_S_S128 (constant (F := Ideal) S_ .f32 0x47435000#32) (ix1 c)) = _
  rw [colSum_apply, bcast_scalar_apply]
  rfl

theorem cent_apply (H : FVec Ideal S50000x128 .f32) (k : Fin 50000) (c : Fin 128) :
    cent (F := Ideal) H (ix2 k c) = H (ix2 k c) - mu H c := by
  unfold cent
  show H (ix2 k c) - rows (F := Ideal) (meanV (F := Ideal) H) (ix2 k c) = _
  rw [rows_apply, meanV_apply]

theorem varV_apply (H : FVec Ideal S50000x128 .f32) (c : Fin 128) : varV (F := Ideal) H (ix1 c) = varC H c := by
  unfold varV varC rowsC
  show Ideal.div (colSum (F := Ideal) (mulf (cent (F := Ideal) H) (cent (F := Ideal) H)) (ix1 c)) (broadcastInDim S128 ![] bcast_S_S128 (constant (F := Ideal) S_ .f32 0x47435000#32) (ix1 c)) = _
  rw [colSum_apply, bcast_scalar_apply]
  show Ideal.div (∑ k : Fin 50000, cent (F := Ideal) H (ix2 k c) * cent (F := Ideal) H (ix2 k c)) _ = _
  simp only [cent_apply]
  rfl

/-- An entry of the reference's result. -/
theorem tail_apply (H x0 : FVec Ideal S50000x128 .f32) (x4 x5 : FVec Ideal S128 .f32) (r : Fin 50000) (c : Fin 128) :
    tail (F := Ideal) H x0 x4 x5 (ix2 r c)
      = outAt (x0 (ix2 r c)) (H (ix2 r c)) (mu H c) (varC H c) (x4 (ix1 c)) (x5 (ix1 c)) := by
  unfold tail outAt epsC
  show x0 (ix2 r c) + max ((cent (F := Ideal) H (ix2 r c) * rows (F := Ideal) (Host.rsqrt (addf (varV (F := Ideal) H) (broadcastInDim S128 ![] bcast_S_S128 (constant (F := Ideal) S_ .f32 0x3727C5AC#32)))) (ix2 r c)) * rows (F := Ideal) x4 (ix2 r c) + rows (F := Ideal) x5 (ix2 r c)) (broadcastInDim S50000x128 ![] bcast_S_S50000x128 (constant (F := Ideal) S_ .f32 0x00000000#32) (ix2 r c)) = _
  rw [rows_apply, rows_apply, rows_apply, cent_apply, bcast_scalar_apply]
  show _ + max ((_ * Ideal.rsqrt (varV (F := Ideal) H (ix1 c) + broadcastInDim S128 ![] bcast_S_S128 (constant (F := Ideal) S_ .f32 0x3727C5AC#32) (ix1 c))) * _ + _) (Ideal.ofBits .f32 0x00000000#32) = _
  rw [varV_apply, bcast_scalar_apply, ofBits_zero]
  rfl

end Cert.ReferenceIdeal.Hand

end
-- ==== Proof.LibRealOps.lean ====
/-
  Operations that keep an array of extended reals within the real numbers.

  A matrix product entry is zero plus a finite sum of products of entries; an accumulating scatter's entry is the
  operand's entry plus a finite sum of update entries (whatever the index vectors are); an entry of a concatenation is
  an entry of one of the pieces. So each of these has real entries when its operands do.
-/
import Mathlib
import Idealize.ShloMosaic.PureOps.Ideal
import Idealize.ShloMosaic.PureOps.Ideal.Laws
import proofs.«100572_j75677323756038_1_alg».proof.Proof.LibRealSum

noncomputable section

open scoped BigOperators

namespace Cert.Lib.RealOps

open Idealize.ShloMosaic Cert.LibRealSum

/-- The host's matrix product of arrays with real entries has real entries. -/
theorem isReal_dotGeneral {sl sr so : Shape} {φ₁ φ₂ : FTy} (d : DotDims sl sr so) (prec : Option ContractPrecision)
    (l : FVec Ideal sl φ₁) (r : FVec Ideal sr φ₂) (hl : ∀ i, IsReal (l i)) (hr : ∀ i, IsReal (r i)) (j : so.Idx) :
    IsReal (Host.dotGeneral (F := Ideal) d prec l r j) := by
  simp only [Host.dotGeneral]
  rw [Ideal.dotGeneral_apply]
  exact isReal_sum _ _ fun k _ => (hl _).mul (hr _)

/-- The host's accumulating scatter of real updates into a real operand has real entries, for any indices. -/
theorem isReal_scatterAdd {s si u : Shape} {w : Nat} {φ : FTy} (d : ScatterDims s si u) (Z : FVec Ideal s φ)
    (idx : IVec si w) (upd : FVec Ideal u φ) (hZ : ∀ i, IsReal (Z i)) (hu : ∀ j, IsReal (upd j)) (i : s.Idx) :
    IsReal (Host.scatterAdd (F := Ideal) d Z idx upd i) := by
  show IsReal (Ideal.hostScatterAdd d Z idx upd i)
  unfold Ideal.hostScatterAdd
  exact (hZ i).add (isReal_sum _ _ fun j _ => hu j)

/-- An entry of a concatenation of pieces with real entries is real. -/
theorem isReal_concatenate (t : Shape) (a : Fin t.rank) (xs : List ((s : Shape) × (s.Idx → EReal)))
    (h : Shape.Concatenates (xs.map (·.1)) t a) (hxs : ∀ p ∈ xs, ∀ i, IsReal (p.2 i)) (j : t.Idx) :
    IsReal (concatenate t a xs h j) := by
  unfold concatenate
  exact hxs _ (List.getElem_mem _) _

end Cert.Lib.RealOps

end
-- ==== Proof.LibRealArrays.lean ====
/-
  Arrays of extended reals whose entries are all real numbers, under the operations that move or combine entries.

  A broadcast, a gather and a transpose only move entries, so their results have real entries when their operand does
  (for a gather whatever the indices are). A selection takes each entry from one of two arrays; an entrywise sum or
  product combines two real entries into a real one. The reciprocal square root of max d 1 for a real d is a real
  number, since max d 1 is a positive real.
-/
import Mathlib
import Idealize.ShloMosaic.PureOps.Ideal
import proofs.«100572_j75677323756038_1_alg».proof.Proof.LibRealSum
import proofs.«100572_j75677323756038_1_alg».proof.Proof.LibMomentNorm

noncomputable section

namespace Cert.Lib.RealArrays

open Idealize.ShloMosaic Cert.LibRealSum

/-- A broadcast of an array of reals is an array of reals. -/
theorem isReal_bcast {s t : Shape} (dims : Fin s.rank → Fin t.rank) (h : s.BroadcastsInDim t dims) (x : s.Idx → EReal)
    (hx : ∀ i, IsReal (x i)) (j : t.Idx) : IsReal (broadcastInDim t dims h x j) := by
  unfold broadcastInDim; exact hx _

/-- A selection between two arrays of reals is an array of reals. -/
theorem isReal_select {s : Shape} (cnd : IVec s 1) (a b : s.Idx → EReal) (ha : ∀ i, IsReal (a i)) (hb : ∀ i, IsReal (b i))
    (i : s.Idx) : IsReal (select cnd a b i) := by
  unfold select Scalar.select
  split
  · exact ha i
  · exact hb i

/-- The reciprocal square root of a real raised to at least 1 is a real. -/
theorem isReal_rsqrt_max_one {s : Shape} (d one : FVec Ideal s .f32) (hd : ∀ i, IsReal (d i))
    (h1 : ∀ i, one i = ((1 : ℝ) : EReal)) (i : s.Idx) : IsReal (Host.rsqrt (maximumf d one) i) := by
  show IsReal (Ideal.rsqrt (max (d i) (one i)))
  rw [h1 i]
  obtain ⟨a, ha⟩ := hd i
  rw [ha, show max ((a : ℝ) : EReal) ((1 : ℝ) : EReal) = ((max a 1 : ℝ) : EReal) from (EReal.coe_strictMono.monotone.map_max).symm,
    Cert.Lib.MomentNorm.rsqrt_coe_of_pos _ (lt_of_lt_of_le one_pos (le_max_right a 1))]
  exact isReal_coe _

/-- An entrywise product of arrays of reals is an array of reals. -/
theorem isReal_mulf {s : Shape} (a b : FVec Ideal s .f32) (ha : ∀ i, IsReal (a i)) (hb : ∀ i, IsReal (b i)) (i : s.Idx) :
    IsReal (mulf a b i) := (ha i).mul (hb i)

/-- An entrywise sum of arrays of reals is an array of reals. -/
theorem isReal_addf {s : Shape} (a b : FVec Ideal s .f32) (ha : ∀ i, IsReal (a i)) (hb : ∀ i, IsReal (b i)) (i : s.Idx) :
    IsReal (addf a b i) := (ha i).add (hb i)

/-- A gathered array's entries are entries of its operand. -/
theorem isReal_gather {s si t : Shape} {w : Nat} (d : GatherDims s si t) (x : s.Idx → EReal) (idx : IVec si w)
    (hx : ∀ i, IsReal (x i)) (j : t.Idx) : IsReal (Host.gather d x idx j) := hx _

/-- A transposed array's entries are entries of its operand. -/
theorem isReal_transpose {s t : Shape} (perm : List (Fin s.rank)) (x : s.Idx → EReal) (h : s.Transposes perm t)
    (hx : ∀ i, IsReal (x i)) (j : t.Idx) : IsReal (transpose t perm x h j) := hx _

end Cert.Lib.RealArrays

end
-- ==== Proof.RowsReal.lean ====
/-
  The aggregated, biased rows are real numbers when the inputs are.

  The degree of a node is a sum of ones, so a real number; raised to at least 1 it is a positive real, whose reciprocal
  square root is a real; the weight of an edge is a product of two such numbers (or zeros). An entry of the product of
  the rows with the weight matrix is a finite sum of products of real entries. A gathered array's entry is an entry of
  its operand, whatever the index; an accumulating scatter's entry is the operand's entry plus a finite sum of update
  entries, whatever the indices. So every entry of the aggregation plus the bias is a real number as soon as the
  rows, the weight matrix and the bias are — nothing is asked of the edge list.
-/
import proofs.«100572_j75677323756038_1_alg».proof.Proof.RefRun
import proofs.«100572_j75677323756038_1_alg».proof.Proof.LibRealSum
import proofs.«100572_j75677323756038_1_alg».proof.Proof.LibRealOps
import proofs.«100572_j75677323756038_1_alg».proof.Proof.LibBatchNorm
import proofs.«100572_j75677323756038_1_alg».proof.Proof.LibMomentNorm
import proofs.«100572_j75677323756038_1_alg».proof.Proof.Consts
import proofs.«100572_j75677323756038_1_alg».proof.Proof.LibColReduce
import proofs.«100572_j75677323756038_1_alg».proof.Proof.LibRealArrays

noncomputable section

namespace Cert.ReferenceIdeal.Hand

open Cert.ReferenceIdeal Cert.ReferenceIdeal.Gen Idealize.ShloMosaic
open Cert.LibRealSum Cert.Lib.RealOps Cert.Lib.RealArrays Cert.GcnNorm.Consts

theorem isReal_const_zero (i : S_.Idx) : IsReal (constant (F := Ideal) S_ .f32 0x00000000#32 i) := by
  show IsReal (Ideal.ofBits .f32 0x00000000#32); rw [ofBits_zero]; exact isReal_zero

theorem isReal_const_one (i : S_.Idx) : IsReal (constant (F := Ideal) S_ .f32 0x3F800000#32 i) := by
  show IsReal (Ideal.ofBits .f32 0x3F800000#32); rw [ofBits_one]; exact isReal_coe 1

variable (x1 : (⟨S2x800000, .i32⟩ : BufTy).Contents (Elt Ideal))

/-- The degree is a real number. -/
theorem isReal_deg (i : S50000.Idx) : IsReal (deg (F := Ideal) x1 i) := by
  unfold deg
  exact isReal_scatterAdd _ _ _ _ (fun i => isReal_bcast _ _ _ isReal_const_zero i) (fun j => isReal_bcast _ _ _ isReal_const_one j) i

/-- The degree's guarded reciprocal square root is a real number. -/
theorem isReal_dinv (i : S50000.Idx) : IsReal (dinv (F := Ideal) x1 i) := by
  unfold dinv
  refine isReal_select _ _ _ (isReal_rsqrt_max_one _ _ (isReal_deg x1) (fun i => ?_)) (fun i => isReal_bcast _ _ _ (fun k => isReal_const_zero k) i) i
  rw [Cert.Lib.ColReduce.bcast_scalar_apply]
  exact ofBits_one

/-- An edge's weight is a real number. -/
theorem isReal_edgeW (i : S850000.Idx) : IsReal (edgeW (F := Ideal) x1 i) := by
  unfold edgeW
  exact isReal_mulf _ _ (isReal_gather _ _ _ (isReal_dinv x1)) (isReal_gather _ _ _ (isReal_dinv x1)) i

/-- The aggregation of an array of reals is an array of reals. -/
theorem isReal_agg (xw : FVec Ideal S50000x128 .f32) (hxw : ∀ i, IsReal (xw i)) (i : S50000x128.Idx) :
    IsReal (agg (F := Ideal) xw x1 i) := by
  unfold agg
  exact isReal_scatterAdd _ _ _ _ (fun i => isReal_bcast _ _ _ isReal_const_zero i)
    (isReal_mulf _ _ (isReal_gather _ _ _ hxw) (fun j => isReal_bcast _ _ _ (fun k => isReal_bcast _ _ _ (isReal_edgeW x1) k) j)) i

/-- The product of real rows with a real weight matrix has real entries. -/
theorem isReal_xwRef (x0 : FVec Ideal S50000x128 .f32) (x2 : FVec Ideal S128x128 .f32) (h0 : ∀ i, IsReal (x0 i))
    (h2 : ∀ i, IsReal (x2 i)) (i : S50000x128.Idx) : IsReal (xwRef (F := Ideal) x0 x2 i) := by
  unfold xwRef
  exact isReal_dotGeneral _ _ _ _ h0 (isReal_transpose _ _ _ h2) i

/-- The aggregated rows plus the bias are real numbers. -/
theorem isReal_hRef (x0 : FVec Ideal S50000x128 .f32) (x2 : FVec Ideal S128x128 .f32) (x3 : FVec Ideal S128 .f32)
    (h0 : ∀ i, IsReal (x0 i)) (h2 : ∀ i, IsReal (x2 i)) (h3 : ∀ i, IsReal (x3 i)) (i : S50000x128.Idx) :
    IsReal (hRef (F := Ideal) x0 x1 x2 x3 i) := by
  unfold hRef rows
  exact isReal_addf _ _ (isReal_agg x1 _ (isReal_xwRef x0 x2 h0 h2)) (fun j => isReal_bcast _ _ _ (fun k => isReal_bcast _ _ _ h3 k) j) i

end Cert.ReferenceIdeal.Hand

end
-- ==== Proof.SameHost.lean ====
/-
  The two programs' host stretches are the same functions.

  The kernel program and the reference state their host operations over their own copies of the same shapes and
  dimension records; the staged terms built from them are equal, stage by stage, for any float values.
-/
import proofs.«100572_j75677323756038_1_alg».proof.Proof.KStages
import proofs.«100572_j75677323756038_1_alg».proof.Proof.RefRun

noncomputable section

namespace Cert.GcnNorm.Same

open Idealize.ShloMosaic

variable {F : FTy → Type} [FloatOps F]

theorem src_eq (x1 : (⟨2, ![2, 800000]⟩ : Shape).Idx → BitVec 32) :
    Cert.KernelIdeal.Hand.src (F := F) x1 = Cert.ReferenceIdeal.Hand.src (F := F) x1 := rfl

theorem dst_eq (x1 : (⟨2, ![2, 800000]⟩ : Shape).Idx → BitVec 32) :
    Cert.KernelIdeal.Hand.dst (F := F) x1 = Cert.ReferenceIdeal.Hand.dst (F := F) x1 := rfl

theorem wrap_eq (v : (⟨1, ![850000]⟩ : Shape).Idx → BitVec 32) :
    Cert.KernelIdeal.Hand.wrap (F := F) v = Cert.ReferenceIdeal.Hand.wrap (F := F) v := rfl

theorem deg_eq (x1 : (⟨2, ![2, 800000]⟩ : Shape).Idx → BitVec 32) :
    Cert.KernelIdeal.Hand.deg (F := F) x1 = Cert.ReferenceIdeal.Hand.deg (F := F) x1 := by
  unfold Cert.KernelIdeal.Hand.deg Cert.ReferenceIdeal.Hand.deg
  rw [dst_eq]
  rfl

theorem dinv_eq (x1 : (⟨2, ![2, 800000]⟩ : Shape).Idx → BitVec 32) :
    Cert.KernelIdeal.Hand.dinv (F := F) x1 = Cert.ReferenceIdeal.Hand.dinv (F := F) x1 := by
  unfold Cert.KernelIdeal.Hand.dinv Cert.ReferenceIdeal.Hand.dinv
  rw [deg_eq]

theorem edgeW_eq (x1 : (⟨2, ![2, 800000]⟩ : Shape).Idx → BitVec 32) :
    Cert.KernelIdeal.Hand.edgeW (F := F) x1 = Cert.ReferenceIdeal.Hand.edgeW (F := F) x1 := by
  unfold Cert.KernelIdeal.Hand.edgeW Cert.ReferenceIdeal.Hand.edgeW
  rw [dinv_eq, src_eq, dst_eq, wrap_eq, wrap_eq]
  rfl

/-- The two aggregations are one function. -/
theorem agg_eq (xw : (⟨2, ![50000, 128]⟩ : Shape).Idx → F .f32) (x1 : (⟨2, ![2, 800000]⟩ : Shape).Idx → BitVec 32) :
    Cert.KernelIdeal.Hand.agg (F := F) xw x1 = Cert.ReferenceIdeal.Hand.agg (F := F) xw x1 := by
  unfold Cert.KernelIdeal.Hand.agg Cert.ReferenceIdeal.Hand.agg
  rw [edgeW_eq, src_eq, dst_eq, wrap_eq]
  rfl

/-- The two products of the rows with the transposed weight matrix are one function. -/
theorem xw_eq (x0 : (⟨2, ![50000, 128]⟩ : Shape).Idx → F .f32) (x2 : (⟨2, ![128, 128]⟩ : Shape).Idx → F .f32) :
    Cert.KernelIdeal.Hand.xwHost (F := F) x0 x2 = Cert.ReferenceIdeal.Hand.xwRef (F := F) x0 x2 := rfl

end Cert.GcnNorm.Same

end
-- ==== Proof.Bridge.lean ====
/-
  The kernel program's result and the reference's are one array.

  Both programs aggregate the same product over the same edge list with the same weights and add the bias: the arrays of
  biased rows are equal entry by entry. The kernel program then normalises with the variance from the first two moments,
  the reference with the variance of the centred entries; the biased rows are real numbers when the inputs are, and for
  real numbers the two variances coincide. Everything else — the mean, the reciprocal square root of the variance plus the
  small constant, the gain, the offset, the cut at zero and the residual — is the same expression on both sides.
-/
import proofs.«100572_j75677323756038_1_alg».proof.Proof.Fold
import proofs.«100572_j75677323756038_1_alg».proof.Proof.RefTail
import proofs.«100572_j75677323756038_1_alg».proof.Proof.RowsReal
import proofs.«100572_j75677323756038_1_alg».proof.Proof.SameHost
import proofs.«100572_j75677323756038_1_alg».proof.Proof.LibColReduce
import Idealize.ShloMosaic.Lib.ValueLayout

noncomputable section

namespace Cert.GcnNorm.Bridge

open Idealize.ShloMosaic Idealize.ShloMosaic.ValueIdx Cert.LibRealSum Cert.GcnNorm
open Cert.KernelIdeal.Fold Cert.KernelIdeal.Moments Cert.KernelIdeal.Norm Cert.KernelIdeal.Hand
open Cert.ReferenceIdeal.Hand (hRef tail rows_apply tail_apply isReal_hRef)

variable (x0 : Mat) (x1 : (⟨2, ![2, 800000]⟩ : Shape).Idx → BitVec 32) (x2 : (⟨2, ![128, 128]⟩ : Shape).Idx → EReal)
  (x3 x4 x5 : (⟨1, ![128]⟩ : Shape).Idx → EReal)

/-! ### Entrywise operations on the extended reals, read at an entry -/

theorem addf_at {s : Shape} (a b : FVec Ideal s .f32) (i : s.Idx) : addf a b i = a i + b i := rfl
theorem subf_at {s : Shape} (a b : FVec Ideal s .f32) (i : s.Idx) : subf a b i = a i - b i := rfl
theorem mulf_at {s : Shape} (a b : FVec Ideal s .f32) (i : s.Idx) : mulf a b i = a i * b i := rfl
theorem hostDivf_at {s : Shape} (a b : FVec Ideal s .f32) (i : s.Idx) : Host.divf a b i = Ideal.div (a i) (b i) := rfl

theorem normed_at (x h : FVec Ideal Cert.KernelIdeal.S50000x128 .f32) (mean var g b : FVec Ideal Cert.KernelIdeal.S1x128 .f32)
    (r : Fin 50000) (q : Fin 128) :
    normed x h mean var g b (ix2 r q)
      = outAt (x (ix2 r q)) (h (ix2 r q)) (mean (ix2 (0 : Fin 1) q)) (var (ix2 (0 : Fin 1) q)) (g (ix2 (0 : Fin 1) q)) (b (ix2 (0 : Fin 1) q)) := rfl

theorem biased_at (a : FVec Ideal Cert.KernelIdeal.S50000x128 .f32) (b : FVec Ideal Cert.KernelIdeal.S1x128 .f32)
    (r : Fin 50000) (q : Fin 128) : biased a b (ix2 r q) = a (ix2 r q) + b (ix2 (0 : Fin 1) q) := rfl

/-! ### The two arrays of biased rows -/

theorem hK_at (r : Fin 50000) (q : Fin 128) : hKof x0 x1 x2 x3 (ix2 r q)
    = Cert.KernelIdeal.Hand.agg (F := Ideal) (Cert.KernelIdeal.Xw.prod x0 (transpose Cert.KernelIdeal.S128x128 [1, 0] x2 Cert.KernelIdeal.Gen.transposes_S128x128_S128x128_1_0)) x1 (ix2 r q) + x3 (ix1 q) := by
  unfold hKof
  rw [biased_at, shapeCast_a_1a_apply]

theorem hRef_at (r : Fin 50000) (q : Fin 128) : hRef (F := Ideal) x0 x1 x2 x3 (ix2 r q)
    = Cert.ReferenceIdeal.Hand.agg (F := Ideal) (Cert.ReferenceIdeal.Hand.xwRef (F := Ideal) x0 x2) x1 (ix2 r q) + x3 (ix1 q) := by
  unfold hRef
  rw [addf_at, rows_apply]

/-- The two programs' biased rows are the same array. -/
theorem hK_eq_hRef : hKof x0 x1 x2 x3 = hRef (F := Ideal) x0 x1 x2 x3 := by
  have e1 : Cert.KernelIdeal.Xw.prod x0 (transpose Cert.KernelIdeal.S128x128 [1, 0] x2 Cert.KernelIdeal.Gen.transposes_S128x128_S128x128_1_0)
      = Cert.ReferenceIdeal.Hand.xwRef (F := Ideal) x0 x2 := Cert.GcnNorm.Same.xw_eq (F := Ideal) x0 x2
  funext i
  obtain ⟨r, q, rfl⟩ : ∃ (r : Fin 50000) (q : Fin 128), i = ix2 r q := ⟨i 0, i 1, eq_ix2 i⟩
  rw [hK_at, hRef_at, e1, Cert.GcnNorm.Same.agg_eq (F := Ideal)]

/-- The mean row the kernel program forms reads the column mean. -/
theorem perRow_colSums (H : Mat) (q : Fin 128) : perRow (F := Ideal) (colSums H) (ix2 (0 : Fin 1) q) = mu H q := by
  unfold perRow
  rw [hostDivf_at, Cert.Lib.ColReduce.bcast_scalar_apply, colSums_apply]
  rfl

/-- The variance row the kernel program forms reads the variance from the moments. -/
theorem varRow_colSums (H : Mat) (q : Fin 128) :
    varRow (F := Ideal) (colSums H) (colSums (fun i => H i * H i)) (ix2 (0 : Fin 1) q) = varM H q := by
  unfold varRow
  rw [subf_at, mulf_at, perRow_colSums H q, perRow_colSums (fun i => H i * H i) q]
  rfl

/-- THE TWO RESULTS ARE ONE ARRAY, when the rows, the weight matrix and the bias are real. -/
theorem outK_eq_tail (h0 : ∀ i, IsReal (x0 i)) (h2 : ∀ i, IsReal (x2 i)) (h3 : ∀ i, IsReal (x3 i)) :
    outK x0 x1 x2 x3 x4 x5 = tail (F := Ideal) (hRef (F := Ideal) x0 x1 x2 x3) x0 x4 x5 := by
  funext i
  obtain ⟨r, q, rfl⟩ : ∃ (r : Fin 50000) (q : Fin 128), i = ix2 r q := ⟨i 0, i 1, eq_ix2 i⟩
  rw [tail_apply, ← varM_eq_varC _ (isReal_hRef x1 x0 x2 x3 h0 h2 h3) q, ← hK_eq_hRef]
  unfold outK
  rw [normed_at, perRow_colSums, varRow_colSums, shapeCast_a_1a_apply, shapeCast_a_1a_apply]

end Cert.GcnNorm.Bridge

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«100572_j75677323756038_1_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.Finite.lean ====
/-
  The precondition says the float inputs are real numbers.

  The precondition is one word: the conjunction, over the five float arrays, of "every entry's absolute value is below
  +∞", each computed as a reduction by "and" of the entrywise tests. The word is 1 only if each of the five is, and each
  of those is 1 only if every test is; an extended real whose absolute value is below +∞ is a real number. So under the
  precondition the rows, the weight matrix and the bias consist of real numbers (nothing is said of the edge list).
-/
import proofs.«100572_j75677323756038_1_alg».proof.Pre_finite_inputs
import proofs.«100572_j75677323756038_1_alg».proof.Proof.LibFiniteAll
import Idealize.ShloMosaic.Lib.Affine

noncomputable section

namespace Cert.GcnNorm.Finite

open Idealize.ShloMosaic Cert.Pre_finite_inputs Cert.LibRealSum Cert.Lib.FiniteAll

/-- Under the precondition the rows, the weight matrix and the bias are arrays of real numbers. -/
theorem reals_of_pre [Cert.Pre_finite_inputs.Facts] (a0 : FVec Ideal S50000x128 .f32) (a1 : IVec S2x800000 32)
    (a2 : FVec Ideal S128x128 .f32) (a3 a4 a5 : FVec Ideal S128 .f32)
    (h : fn (F := Ideal) a0 a1 a2 a3 a4 a5 = fun _ => 1#1) :
    (∀ i, IsReal (a0 i)) ∧ (∀ i, IsReal (a2 i)) ∧ (∀ i, IsReal (a3 i)) := by
  have h0 := congrFun h ValueIdx.ix0
  dsimp only [fn, fn_part1] at h0
  simp only [andi, IntOp.andi_eq_one] at h0
  obtain ⟨⟨⟨⟨hA, hB⟩, hC⟩, hD⟩, hE⟩ := h0
  exact ⟨all_real a0 _ _ _ _ hA, all_real a2 _ _ _ _ hB, all_real a3 _ _ _ _ hC⟩

end Cert.GcnNorm.Finite

end
-- ==== Proof.lean ====
/-
  A graph convolution layer with batch normalisation, a cut at zero and a residual, computed two ways.

  Both programs form, from the rows x : [50000, 128], the edge list, the weight matrix W, the bias b, the gain g and the
  offset β: the product x · Wᵀ; its aggregation over the edges with self loops, each edge weighted by the reciprocal
  square roots of the degrees of its two ends; the bias added (call the result H); H normalised down its columns by the
  column mean and variance, scaled by g, shifted by β, cut at zero, and added to x.

  The kernel program computes the product, the bias with the column sums Σ H and Σ H², and the normalisation in three
  tiled launches of 25 blocks of 2000 rows, taking the variance as Σ H² / n − (Σ H / n)²; the reference computes
  everything on the host, taking the variance as Σ (H − mean)² / n. Over the extended reals: a block of rows of a product
  is the product of the block; the sums over the 25 blocks are the sums over all the rows; and when the inputs are
  finite every entry of H is a real number, so the two variances are the same number. Hence the two results are equal
  entry by entry. The two kernel programs' frames are the generated ones and the reference's frame is its run with the
  result dropped; the idealization rewrote no operation, so its conjunct is `True`.
-/
import proofs.«100572_j75677323756038_1_alg».proof.Defs
import proofs.«100572_j75677323756038_1_alg».proof.Proof.Gen.Kernel
import proofs.«100572_j75677323756038_1_alg».proof.Proof.Gen.Kernel.Skeleton
import proofs.«100572_j75677323756038_1_alg».proof.Proof.Gen.Kernel.Launch
import proofs.«100572_j75677323756038_1_alg».proof.Proof.Gen.Kernel.Points
import proofs.«100572_j75677323756038_1_alg».proof.Proof.Gen.Kernel.Frame
import proofs.«100572_j75677323756038_1_alg».proof.Proof.Gen.KernelIdeal
import proofs.«100572_j75677323756038_1_alg».proof.Proof.Gen.KernelIdeal.Skeleton
import proofs.«100572_j75677323756038_1_alg».proof.Proof.Gen.KernelIdeal.Launch
import proofs.«100572_j75677323756038_1_alg».proof.Proof.Gen.KernelIdeal.Points
import proofs.«100572_j75677323756038_1_alg».proof.Proof.Gen.KernelIdeal.Frame
import proofs.«100572_j75677323756038_1_alg».proof.Proof.Gen.ReferenceIdeal
import proofs.«100572_j75677323756038_1_alg».proof.Proof.Gen.Pre_finite_inputs
import proofs.«100572_j75677323756038_1_alg».proof.Proof.WholeRun
import proofs.«100572_j75677323756038_1_alg».proof.Proof.RefRun
import proofs.«100572_j75677323756038_1_alg».proof.Proof.Fold
import proofs.«100572_j75677323756038_1_alg».proof.Proof.Bridge
import proofs.«100572_j75677323756038_1_alg».proof.Proof.Finite
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories agreeing on the arguments, with finite float inputs, both programs end with the same result array:
    the kernel program's run with its result read back to the arguments, the reference's run, and the equality of
    the two arrays. -/
theorem algebraic : Cert.algebraic_KernelIdeal_ReferenceIdeal := by
  intro m ρ m' ρ' hpre hagree
  refine ⟨fun c => Cert.KernelIdeal.Fold.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result m ρ c), (h c).2⟩)
      (Cert.KernelIdeal.Whole.run_fold (F := Ideal) m ρ)
  · refine (θ_run Cert.ReferenceIdeal.defs _ _).mono (fun r h c => ⟨(h c).1.trans ?_, (h c).2⟩)
      (Cert.ReferenceIdeal.Hand.run (F := Ideal) m' ρ')
    obtain ⟨a0, a1, a2, a3, a4, a5⟩ := hagree c
    rw [a0, a1, a2, a3, a4, a5]
    obtain ⟨h0, h2, h3⟩ := Cert.GcnNorm.Finite.reals_of_pre _ _ _ _ _ _ (hpre c)
    exact (Cert.GcnNorm.Bridge.outK_eq_tail _ _ _ _ _ _ h0 h2 h3).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
